-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16x1024x512 : Shape := ⟨3, ![16, 1024, 512]⟩
abbrev S16x512x512 : Shape := ⟨3, ![16, 512, 512]⟩
abbrev S16x512 : Shape := ⟨2, ![16, 512]⟩
abbrev S512x8192 : Shape := ⟨2, ![512, 8192]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16x1024x512 : S_.BroadcastsInDim S16x1024x512 (![] : Fin 0 → Fin S16x1024x512.rank)
  reducesTo_S16x1024x512_S_d0_1_2 : S16x1024x512.ReducesTo [0, 1, 2] S_
  bcast_S_S16x512x512 : S_.BroadcastsInDim S16x512x512 (![] : Fin 0 → Fin S16x512x512.rank)
  reducesTo_S16x512x512_S_d0_1_2 : S16x512x512.ReducesTo [0, 1, 2] S_
  bcast_S_S16x512 : S_.BroadcastsInDim S16x512 (![] : Fin 0 → Fin S16x512.rank)
  reducesTo_S16x512_S_d0_1 : S16x512.ReducesTo [0, 1] S_
  bcast_S_S512x8192 : S_.BroadcastsInDim S512x8192 (![] : Fin 0 → Fin S512x8192.rank)
  reducesTo_S512x8192_S_d0_1 : S512x8192.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S16x512x512 .f32) (main_arg5 : FVec F S16x512 .f32) (main_arg6 : FVec F S512x8192 .f32) (main_arg7 : FVec F S512 .f32) (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  let main_v19 : FVec F S16x512x512 .f32 := Host.absf main_arg4
  let main_cst_6 : FVec F S_ .f32 := constant S_ .f32 0x7F800000#32
  let main_v20 : FVec F S16x512x512 .f32 := broadcastInDim S16x512x512 ![] bcast_S_S16x512x512 main_cst_6
  let main_v21 : IVec S16x512x512 1 := cmpf .olt main_v19 main_v20
  let main_c_7 : IVec S_ 1 := constantI S_ 1 1#1
  let main_v22 : IVec S_ 1 := (fun x v => Host.reduce IntOp.andi x v reducesTo_S16x512x512_S_d0_1_2 h_S_) main_v21 main_c_7
  let main_v23 : IVec S_ 1 := andi main_v18 main_v22
  let main_v24 : FVec F S16x512 .f32 := Host.absf main_arg5
  let main_cst_8 : FVec F S_ .f32 := constant S_ .f32 0x7F800000#32
  let main_v25 : FVec F S16x512 .f32 := broadcastInDim S16x512 ![] bcast_S_S16x512 main_cst_8
  let main_v26 : IVec S16x512 1 := cmpf .olt main_v24 main_v25
  let main_c_9 : IVec S_ 1 := constantI S_ 1 1#1
  let main_v27 : IVec S_ 1 := (fun x v => Host.reduce IntOp.andi x v reducesTo_S16x512_S_d0_1 h_S_) main_v26 main_c_9
  let main_v28 : IVec S_ 1 := andi main_v23 main_v27
  let main_v29 : FVec F S512x8192 .f32 := Host.absf main_arg6
  let main_cst_10 : FVec F S_ .f32 := constant S_ .f32 0x7F800000#32
  let main_v30 : FVec F S512x8192 .f32 := broadcastInDim S512x8192 ![] bcast_S_S512x8192 main_cst_10
  let main_v31 : IVec S512x8192 1 := cmpf .olt main_v29 main_v30
  let main_c_11 : IVec S_ 1 := constantI S_ 1 1#1
  let main_v32 : IVec S_ 1 := (fun x v => Host.reduce IntOp.andi x v reducesTo_S512x8192_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16x1024x512 .f32) (main_arg2 : FVec F S16x512x512 .f32) (main_arg3 : FVec F S16x512 .f32) (main_arg4 : FVec F S16x512x512 .f32) (main_arg5 : FVec F S16x512 .f32) (main_arg6 : FVec F S512x8192 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  let main_v9 : FVec F S16x512x512 .f32 := Host.absf main_arg2
  let main_cst_2 : FVec F S_ .f32 := constant S_ .f32 0x7F800000#32
  let main_v10 : FVec F S16x512x512 .f32 := broadcastInDim S16x512x512 ![] bcast_S_S16x512x512 main_cst_2
  let main_v11 : IVec S16x512x512 1 := cmpf .olt main_v9 main_v10
  let main_c_3 : IVec S_ 1 := constantI S_ 1 1#1
  let main_v12 : IVec S_ 1 := (fun x v => Host.reduce IntOp.andi x v reducesTo_S16x512x512_S_d0_1_2 h_S_) main_v11 main_c_3
  let main_v13 : IVec S_ 1 := andi main_v8 main_v12
  let main_v14 : FVec F S16x512 .f32 := Host.absf main_arg3
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_arg4 main_arg5 main_arg6 main_arg7 main_v13 main_v16
-- ==== Kernel.lean ====
abbrev S16384x512 : Shape := ⟨2, ![16384, 512]⟩
abbrev S16x1024x512 : Shape := ⟨3, ![16, 1024, 512]⟩
abbrev S16x512x512 : Shape := ⟨3, ![16, 512, 512]⟩
abbrev S16x512 : Shape := ⟨2, ![16, 512]⟩
abbrev S512x8192 : Shape := ⟨2, ![512, 8192]⟩
abbrev S512 : Shape := ⟨1, ![512]⟩
abbrev S16x1x512 : Shape := ⟨3, ![16, 1, 512]⟩
abbrev S1x1024x512 : Shape := ⟨3, ![1, 1024, 512]⟩
abbrev S1x512x512 : Shape := ⟨3, ![1, 512, 512]⟩
abbrev S1x1x512 : Shape := ⟨3, ![1, 1, 512]⟩
abbrev S1024x512 : Shape := ⟨2, ![1024, 512]⟩
abbrev S512x512 : Shape := ⟨2, ![512, 512]⟩
abbrev S1x512 : Shape := ⟨2, ![1, 512]⟩
abbrev S1024 : Shape := ⟨1, ![1024]⟩
abbrev S1024x1 : Shape := ⟨2, ![1024, 1]⟩
abbrev S512x16x512 : Shape := ⟨3, ![512, 16, 512]⟩
abbrev S512x1024 : Shape := ⟨2, ![512, 1024]⟩
abbrev S1024x1024 : Shape := ⟨2, ![1024, 1024]⟩

abbrev nBuf : Space → Nat
  | .hbm => 17
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16x1024x512, .f32⟩
  | .hbm, ⟨2, _⟩ => ⟨S16x512x512, .f32⟩
  | .hbm, ⟨3, _⟩ => ⟨S16x512, .f32⟩
  | .hbm, ⟨4, _⟩ => ⟨S16x512x512, .f32⟩
  | .hbm, ⟨5, _⟩ => ⟨S16x512, .f32⟩
  | .hbm, ⟨6, _⟩ => ⟨S512x8192, .f32⟩
  | .hbm, ⟨7, _⟩ => ⟨S512, .f32⟩
  | .hbm, ⟨8, _⟩ => ⟨S16x1x512, .f32⟩
  | .hbm, ⟨9, _⟩ => ⟨S16x1x512, .f32⟩
  | .hbm, ⟨10, _⟩ => ⟨S16x1024x512, .bf16⟩
  | .hbm, ⟨11, _⟩ => ⟨S16x1024x512, .bf16⟩
  | .hbm, ⟨12, _⟩ => ⟨S512x16x512, .f32⟩
  | .hbm, ⟨13, _⟩ => ⟨S16x512x512, .f32⟩
  | .hbm, ⟨14, _⟩ => ⟨S16x512x512, .bf16⟩
  | .hbm, ⟨15, _⟩ => ⟨S16384x512, .bf16⟩
  | .hbm, ⟨16, _⟩ => ⟨S16384x512, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x512x512, .f32⟩
  | .local _ .vmem, ⟨7, _⟩ => ⟨S1x512x512, .f32⟩
  | .local _ .vmem, ⟨8, _⟩ => ⟨S1x1x512, .f32⟩
  | .local _ .vmem, ⟨9, _⟩ => ⟨S1x1x512, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1024x512, .bf16⟩
  | .local _ .vmem, ⟨15, _⟩ => ⟨S1024x512, .bf16⟩
  | .local _ .vmem, ⟨16, _⟩ => ⟨S16x1024x512, .bf16⟩
  | .local _ .vmem, ⟨17, _⟩ => ⟨S16x1024x512, .bf16⟩
  | .local _ .vmem, ⟨18, _⟩ => ⟨S16x512x512, .bf16⟩
  | .local _ .vmem, ⟨19, _⟩ => ⟨S512, .f32⟩
  | .local _ .vmem, ⟨20, _⟩ => ⟨S1024x512, .f32⟩
  | .local _ .vmem, ⟨21, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 16], ![false, false]⟩

def k1_off1 (i : grid1.Coords) : Fin 3 → Nat :=
  let arg1 : BitVec 32 := BitVec.ofNat 32 (i 1).val
  let v5 : Index := Scalar.indexCast arg1
  let c0_2 : Index := 0#32
  let c0_3 : Index := 0#32
  ![v5.toNat, 0, 0]
def k1_off2 (i : grid1.Coords) : Fin 3 → Nat :=
  let arg1 : BitVec 32 := BitVec.ofNat 32 (i 1).val
  let v25 : Index := Scalar.indexCast arg1
  let c0_9 : Index := 0#32
  let c0_10 : Index := 0#32
  ![v25.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S16x1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16x1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S16x512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S16x512_S16x1x512_0_2 : S16x512.BroadcastsInDim S16x1x512 (![0, 2] : Fin 2 → Fin S16x1x512.rank)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  shapeCasts_S512x8192_S512x16x512 : S512x8192.ShapeCasts S512x16x512
  transposes_S512x16x512_S16x512x512_1_2_0 : S512x16x512.Transposes [1, 2, 0] S16x512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  reduces_S1024x1024_S1024 : S1024x1024.Reduces [1] S1024
  broadcasts_S1024x1_S1024x1024 : S1024x1.Broadcasts S1024x1024
  inb_S512_S512_0 : ∀ a, (![0] : Fin 1 → Nat) a + S512.size a ≤ S512.size a
  h_S512 : 0 < S512.numel
  shapeCasts_S512_S1x512 : S512.ShapeCasts S1x512
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .f32 = 32 ∨ (Rect.block (s := S16x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x512.size a
  hwx0_2 : ∀ i : grid0.Coords, EltTy.bits .f32 = 32 ∨ (Rect.block (s := S16x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x512x512.size a
  hwx0_3 : ∀ i : grid0.Coords, EltTy.bits .f32 = 32 ∨ (Rect.block (s := S16x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S16x1x512.size a
  hwx0_4 : ∀ i : grid0.Coords, EltTy.bits .f32 = 32 ∨ (Rect.block (s := S16x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S16x1024x512.size a
  hwx0_5 : ∀ i : grid0.Coords, EltTy.bits .bf16 = 32 ∨ (Rect.block (s := S16x1024x512) S1x1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S16x1024x512.size a
  hwx0_6 : ∀ i : grid0.Coords, EltTy.bits .bf16 = 32 ∨ (Rect.block (s := S16x1024x512) S1x1024x512.size (cc0_transform_6 i) (hinb0_6 i)).WholeWords (EltTy.packing .bf16)
  hrank1 : 0 < grid1.rank
  k1_off1_inb : ∀ i : grid1.Coords, ∀ a, (k1_off1 i) a + S1x1024x512.size a ≤ S16x1024x512.size a
  k1_off2_inb : ∀ i : grid1.Coords, ∀ a, (k1_off2 i) a + S1x512x512.size a ≤ S16x512x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .bf16 = 32 ∨ (Rect.block (s := S16384x512) S1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1024x512.size a ≤ S16x1024x512.size a
  hwx1_1 : ∀ i : grid1.Coords, EltTy.bits .bf16 = 32 ∨ (Rect.block (s := S16x1024x512) S16x1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1024x512.size a ≤ S16x1024x512.size a
  hwx1_2 : ∀ i : grid1.Coords, EltTy.bits .bf16 = 32 ∨ (Rect.block (s := S16x1024x512) S16x1024x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x512x512.size a ≤ S16x512x512.size a
  hwx1_3 : ∀ i : grid1.Coords, EltTy.bits .bf16 = 32 ∨ (Rect.block (s := S16x512x512) S16x512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S16384x512.size a
  hwx1_5 : ∀ i : grid1.Coords, EltTy.bits .f32 = 32 ∨ (Rect.block (s := S16384x512) S1024x512.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S16x1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S16x1024x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S16x512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x512 : Shape := ⟨2, ![16384, 512]⟩
abbrev S16x1024x512 : Shape := ⟨3, ![16, 1024, 512]⟩
abbrev S16x512x512 : Shape := ⟨3, ![16, 512, 512]⟩
abbrev S16x512 : Shape := ⟨2, ![16, 512]⟩
abbrev S512x8192 : Shape := ⟨2, ![512, 8192]⟩
abbrev S512 : Shape := ⟨1, ![512]⟩
abbrev S16x1x512 : Shape := ⟨3, ![16, 1, 512]⟩
abbrev S_ : Shape := ⟨0, ![]⟩
abbrev S16x1024 : Shape := ⟨2, ![16, 1024]⟩
abbrev S16x1024x1 : Shape := ⟨3, ![16, 1024, 1]⟩
abbrev S16x1024x16384 : Shape := ⟨3, ![16, 1024, 16384]⟩
abbrev S16x16384x1024 : Shape := ⟨3, ![16, 16384, 1024]⟩
abbrev S16x16384 : Shape := ⟨2, ![16, 16384]⟩
abbrev S16x16384x1 : Shape := ⟨3, ![16, 16384, 1]⟩
abbrev S16x16384x512 : Shape := ⟨3, ![16, 16384, 512]⟩
abbrev S16384x16x512 : Shape := ⟨3, ![16384, 16, 512]⟩
abbrev S16384x8192 : Shape := ⟨2, ![16384, 8192]⟩
abbrev S8192x512 : Shape := ⟨2, ![8192, 512]⟩
abbrev S1x512 : Shape := ⟨2, ![1, 512]⟩

abbrev nBuf : Space → Nat
  | .hbm => 54
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16x1024x512, .f32⟩
  | .hbm, ⟨2, _⟩ => ⟨S16x512x512, .f32⟩
  | .hbm, ⟨3, _⟩ => ⟨S16x512, .f32⟩
  | .hbm, ⟨4, _⟩ => ⟨S16x512x512, .f32⟩
  | .hbm, ⟨5, _⟩ => ⟨S16x512, .f32⟩
  | .hbm, ⟨6, _⟩ => ⟨S512x8192, .f32⟩
  | .hbm, ⟨7, _⟩ => ⟨S512, .f32⟩
  | .hbm, ⟨8, _⟩ => ⟨S16x1024x512, .f32⟩
  | .hbm, ⟨9, _⟩ => ⟨S16x1x512, .f32⟩
  | .hbm, ⟨10, _⟩ => ⟨S16x1024x512, .f32⟩
  | .hbm, ⟨11, _⟩ => ⟨S16x1024x512, .f32⟩
  | .hbm, ⟨12, _⟩ => ⟨S_, .f32⟩
  | .hbm, ⟨13, _⟩ => ⟨S16x1024, .f32⟩
  | .hbm, ⟨14, _⟩ => ⟨S_, .f32⟩
  | .hbm, ⟨15, _⟩ => ⟨S16x1024, .f32⟩
  | .hbm, ⟨16, _⟩ => ⟨S16x1024, .f32⟩
  | .hbm, ⟨17, _⟩ => ⟨S16x1024x1, .f32⟩
  | .hbm, ⟨18, _⟩ => ⟨S16x1024x512, .f32⟩
  | .hbm, ⟨19, _⟩ => ⟨S16x1024x512, .f32⟩
  | .hbm, ⟨20, _⟩ => ⟨S16x1024x512, .f32⟩
  | .hbm, ⟨21, _⟩ => ⟨S_, .f32⟩
  | .hbm, ⟨22, _⟩ => ⟨S16x1024, .f32⟩
  | .hbm, ⟨23, _⟩ => ⟨S16x1024x1, .f32⟩
  | .hbm, ⟨24, _⟩ => ⟨S16x1024x512, .f32⟩
  | .hbm, ⟨25, _⟩ => ⟨S16x1024x512, .f32⟩
  | .hbm, ⟨26, _⟩ => ⟨S16x1024x512, .f32⟩
  | .hbm, ⟨27, _⟩ => ⟨S16x1x512, .f32⟩
  | .hbm, ⟨28, _⟩ => ⟨S16x1024x512, .f32⟩
  | .hbm, ⟨29, _⟩ => ⟨S16x1024x512, .f32⟩
  | .hbm, ⟨30, _⟩ => ⟨S16x1024x16384, .f32⟩
  | .hbm, ⟨31, _⟩ => ⟨S16x16384x1024, .f32⟩
  | .hbm, ⟨32, _⟩ => ⟨S_, .f32⟩
  | .hbm, ⟨33, _⟩ => ⟨S16x16384, .f32⟩
  | .hbm, ⟨34, _⟩ => ⟨S_, .f32⟩
  | .hbm, ⟨35, _⟩ => ⟨S16x16384, .f32⟩
  | .hbm, ⟨36, _⟩ => ⟨S16x16384, .f32⟩
  | .hbm, ⟨37, _⟩ => ⟨S16x16384x1, .f32⟩
  | .hbm, ⟨38, _⟩ => ⟨S16x16384x1024, .f32⟩
  | .hbm, ⟨39, _⟩ => ⟨S16x16384x1024, .f32⟩
  | .hbm, ⟨40, _⟩ => ⟨S16x16384x1024, .f32⟩
  | .hbm, ⟨41, _⟩ => ⟨S_, .f32⟩
  | .hbm, ⟨42, _⟩ => ⟨S16x16384, .f32⟩
  | .hbm, ⟨43, _⟩ => ⟨S16x16384x1, .f32⟩
  | .hbm, ⟨44, _⟩ => ⟨S16x16384x1024, .f32⟩
  | .hbm, ⟨45, _⟩ => ⟨S16x16384x1024, .f32⟩
  | .hbm, ⟨46, _⟩ => ⟨S16x16384x512, .f32⟩
  | .hbm, ⟨47, _⟩ => ⟨S16384x16x512, .f32⟩
  | .hbm, ⟨48, _⟩ => ⟨S16384x8192, .f32⟩
  | .hbm, ⟨49, _⟩ => ⟨S8192x512, .f32⟩
  | .hbm, ⟨50, _⟩ => ⟨S16384x512, .f32⟩
  | .hbm, ⟨51, _⟩ => ⟨S1x512, .f32⟩
  | .hbm, ⟨52, _⟩ => ⟨S16384x512, .f32⟩
  | .hbm, ⟨53, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S16x512_S16x1x512_0_2 : S16x512.BroadcastsInDim S16x1x512 (![0, 2] : Fin 2 → Fin S16x1x512.rank)
  bcast_S16x1x512_S16x1024x512_0_1_2 : S16x1x512.BroadcastsInDim S16x1024x512 (![0, 1, 2] : Fin 3 → Fin S16x1024x512.rank)
  reducesTo_S16x1024x512_S16x1024_d2 : S16x1024x512.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x512_0_1_2 : S16x1024x1.BroadcastsInDim S16x1024x512 (![0, 1, 2] : Fin 3 → Fin S16x1024x512.rank)
  transposes_S16x1024x16384_S16x16384x1024_0_2_1 : S16x1024x16384.Transposes [0, 2, 1] S16x16384x1024
  reducesTo_S16x16384x1024_S16x16384_d2 : S16x16384x1024.ReducesTo [2] S16x16384
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x1024_0_1_2 : S16x16384x1.BroadcastsInDim S16x16384x1024 (![0, 1, 2] : Fin 3 → Fin S16x16384x1024.rank)
  transposes_S16x16384x512_S16384x16x512_1_0_2 : S16x16384x512.Transposes [1, 0, 2] S16384x16x512
  shapeCasts_S16384x16x512_S16384x8192 : S16384x16x512.ShapeCasts S16384x8192
  transposes_S512x8192_S8192x512_1_0 : S512x8192.Transposes [1, 0] S8192x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16x1024x512_S16x512x512_S16x1024x512_2_2_1_1_0_0_wf : DotDims.WF S16x1024x512 S16x512x512 S16x1024x512 [2] [2] [1] [1] [0] [0]
  dot_S16x1024x512_S16384x512_S16x1024x16384_2_1_01_0_n_n_wf : DotDims.WF S16x1024x512 S16384x512 S16x1024x16384 [2] [1] [0, 1] [0] [] []
  dot_S16x16384x1024_S16x1024x512_S16x16384x512_2_1_1_2_0_0_wf : DotDims.WF S16x16384x1024 S16x1024x512 S16x16384x512 [2] [1] [1] [2] [0] [0]
  dot_S16384x8192_S8192x512_S16384x512_1_0_0_1_n_n_wf : DotDims.WF S16384x8192 S8192x512 S16384x512 [1] [0] [0] [1] [] []

variable [Facts₀]

def dot_S16x1024x512_S16x512x512_S16x1024x512_2_2_1_1_0_0 : DotDims S16x1024x512 S16x512x512 S16x1024x512 where
  lhsContracting := [2]
  rhsContracting := [2]
  lhsNonContracting := [1]
  rhsNonContracting := [1]
  lhsBatch := [0]
  rhsBatch := [0]
  wf := dot_S16x1024x512_S16x512x512_S16x1024x512_2_2_1_1_0_0_wf
def dot_S16x1024x512_S16384x512_S16x1024x16384_2_1_01_0_n_n : DotDims S16x1024x512 S16384x512 S16x1024x16384 where
  lhsContracting := [2]
  rhsContracting := [1]
  lhsNonContracting := [0, 1]
  rhsNonContracting := [0]
  lhsBatch := []
  rhsBatch := []
  wf := dot_S16x1024x512_S16384x512_S16x1024x16384_2_1_01_0_n_n_wf
def dot_S16x16384x1024_S16x1024x512_S16x16384x512_2_1_1_2_0_0 : DotDims S16x16384x1024 S16x1024x512 S16x16384x512 where
  lhsContracting := [2]
  rhsContracting := [1]
  lhsNonContracting := [1]
  rhsNonContracting := [2]
  lhsBatch := [0]
  rhsBatch := [0]
  wf := dot_S16x16384x1024_S16x1024x512_S16x16384x512_2_1_1_2_0_0_wf
def dot_S16384x8192_S8192x512_S16384x512_1_0_0_1_n_n : DotDims S16384x8192 S8192x512 S16384x512 where
  lhsContracting := [1]
  rhsContracting := [0]
  lhsNonContracting := [0]
  rhsNonContracting := [1]
  lhsBatch := []
  rhsBatch := []
  wf := dot_S16384x8192_S8192x512_S16384x512_1_0_0_1_n_n_wf

class Facts : Prop extends Facts₀ where

variable [Facts]
-- ==== Proof.KernelRun.lean ====
/-
  The idealized kernel's run with its result named.

  The program is two stretches of host operations and two kernel regions. Every weakly fair execution terminates
  without a fault, and in the final state each unscoped buffer of a core holds the contents of the last segment
  boundary: the fold, through the four segments, of the launch memory. Read at the result buffer this names what the
  second region's write-backs leave in it; read at an argument it is the launch contents.
-/
import proofs.«181606_j26877905338696_2_alg».proof.Proof.Gen.KernelIdeal.Frame

set_option maxRecDepth 16384

noncomputable section

namespace Cert.MemAttn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.MemAttn.KernelRun

end
-- ==== Proof.Region1.lean ====
/-
  The second kernel region, point by point.

  The grid is sixteen row tiles by sixteen heads, the head moving fastest. At point t = 16·q + j the query window
  holds row tile q (rows 1024·q … 1024·q + 1023), the key, value and last-layer-weight windows hold their whole
  arrays (the body cuts slab j out of each), the bias window holds the whole bias, and the output window holds row tile
  q of the result, kept in its buffer across the sixteen heads and written back after the last one. One point's body
  does one of three things to the output buffer: at head 0 it stores zeros and then adds head 0's term; at heads 1 … 14
  it adds the head's term to what the buffer holds; at head 15 it adds the head's term and then the bias row.
-/
import proofs.«181606_j26877905338696_2_alg».proof.Proof.Gen.KernelIdeal.Frame
import Idealize.ShloMosaic.Lib.Pipeline.Value
import Idealize.ShloMosaic.Lib.ValueIdx
import Idealize.ShloMosaic.Lib.Tactic

noncomputable section

namespace Cert.MemAttn.R1

open Idealize.ShloMosaic Idealize.ShloMosaic.TcCoe Idealize.SL.Sem Idealize.ShloMosaic.ValueIdx Idealize.ShloMosaic.Tactic
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- The slab of a [16,1024,512] array the body cuts out at grid coordinates i: the slab of the head coordinate. -/
def headSlab (i : grid1.Coords) (x : Vec F S16x1024x512 .bf16) : Vec F S1x1024x512 .bf16 :=
  View.ld x (Rect.unit (s := S16x1024x512) (k1_off1 i) S1x1024x512.size (k1_off1_inb i))

/-- The slab of the [16,512,512] last-layer weights the body cuts out at grid coordinates i. -/
def headSlabW (i : grid1.Coords) (x : Vec F S16x512x512 .bf16) : Vec F S1x512x512 .bf16 :=
  View.ld x (Rect.unit (s := S16x512x512) (k1_off2 i) S1x512x512.size (k1_off2_inb i))

/-- Heads 1 … 14: the body adds the head's term to what the output buffer holds. -/
theorem out_B (c : Dev nD) (i : grid1.Coords) (a2 : Memref sig .tc .vmem S1024x512 .bf16) (h2 : a2.IsWhole) (a3 : Memref sig .tc .vmem S16x1024x512 .bf16) (h3 : a3.IsWhole) (a4 : Memref sig .tc .vmem S16x1024x512 .bf16) (h4 : a4.IsWhole) (a5 : Memref sig .tc .vmem S16x512x512 .bf16) (h5 : a5.IsWhole) (a6 : Memref sig .tc .vmem S512 .f32) (h6 : a6.IsWhole) (a7 : Memref sig .tc .vmem S1024x512 .f32) (h7 : a7.IsWhole) (hc0 : ¬cond1_0 i) (hc1 : ¬cond1_1 i)
    (x0 : Vec F S1024x512 .bf16) (x1 : Vec F S16x1024x512 .bf16) (x2 : Vec F S16x1024x512 .bf16) (x3 : Vec F S16x512x512 .bf16) (x4 : Vec F S512 .f32) (xo5 : Vec F S1024x512 .f32) :
    out1_B_5 c i a2 h2 a3 h3 a4 h4 a5 h5 a6 h6 a7 h7 hc0 hc1 x0 x1 x2 x3 x4 xo5 = k1_pay3 x0 (headSlab i x1) (headSlab i x2) (headSlabW i x3) xo5 := by
  unfold out1_B_5
  rw [View.read_writes_eq_canon _ _ _ (cover1_B_5 c i a2 h2 a3 h3 a4 h4 a5 h5 a6 h6 a7 h7 hc0 hc1 x0 x1 x2 x3 x4 xo5)]
  unfold kernelRun1_B
  dsimp only
  rw [View.canon_unit_zero hz2]
  simp only [View.readAt_eq_ld, h2.read_unread, h3.read_unread, h4.read_unread, h5.read_unread, h7.read_unread,
    View.ld_unit_zero (S := S1024x512) hz2]
  rfl

/-- Head 0: the body stores zeros, reads them back and adds the head's term. -/
theorem out_A (c : Dev nD) (i : grid1.Coords) (a2 : Memref sig .tc .vmem S1024x512 .bf16) (h2 : a2.IsWhole) (a3 : Memref sig .tc .vmem S16x1024x512 .bf16) (h3 : a3.IsWhole) (a4 : Memref sig .tc .vmem S16x1024x512 .bf16) (h4 : a4.IsWhole) (a5 : Memref sig .tc .vmem S16x512x512 .bf16) (h5 : a5.IsWhole) (a6 : Memref sig .tc .vmem S512 .f32) (h6 : a6.IsWhole) (a7 : Memref sig .tc .vmem S1024x512 .f32) (h7 : a7.IsWhole) (hc0 : cond1_0 i) (hc1 : ¬cond1_1 i)
    (x0 : Vec F S1024x512 .bf16) (x1 : Vec F S16x1024x512 .bf16) (x2 : Vec F S16x1024x512 .bf16) (x3 : Vec F S16x512x512 .bf16) (x4 : Vec F S512 .f32) :
    out1_A_5 c i a2 h2 a3 h3 a4 h4 a5 h5 a6 h6 a7 h7 hc0 hc1 x0 x1 x2 x3 x4 = k1_pay3 x0 (headSlab i x1) (headSlab i x2) (headSlabW i x3) k1_pay2 := by
  unfold out1_A_5
  rw [View.read_writes_eq_canon _ _ _ (cover1_A_5 c i a2 h2 a3 h3 a4 h4 a5 h5 a6 h6 a7 h7 hc0 hc1 x0 x1 x2 x3 x4)]
  unfold kernelRun1_A
  dsimp only
  sl_unfold_words
  rw [View.canon_cons_unit_zero (S := S1024x512) hz2, View.readCov_unit_zero (S := S1024x512) _ hz2]
  simp only [View.readAt_eq_ld, h2.read_unread, h3.read_unread, h4.read_unread, h5.read_unread,
    View.ld_unit_zero (S := S1024x512) hz2]
  rfl

/-- Head 15: the body adds the head's term, reads the sum back and adds the bias row. -/
theorem out_C (c : Dev nD) (i : grid1.Coords) (a2 : Memref sig .tc .vmem S1024x512 .bf16) (h2 : a2.IsWhole) (a3 : Memref sig .tc .vmem S16x1024x512 .bf16) (h3 : a3.IsWhole) (a4 : Memref sig .tc .vmem S16x1024x512 .bf16) (h4 : a4.IsWhole) (a5 : Memref sig .tc .vmem S16x512x512 .bf16) (h5 : a5.IsWhole) (a6 : Memref sig .tc .vmem S512 .f32) (h6 : a6.IsWhole) (a7 : Memref sig .tc .vmem S1024x512 .f32) (h7 : a7.IsWhole) (hc0 : ¬cond1_0 i) (hc1 : cond1_1 i)
    (x0 : Vec F S1024x512 .bf16) (x1 : Vec F S16x1024x512 .bf16) (x2 : Vec F S16x1024x512 .bf16) (x3 : Vec F S16x512x512 .bf16) (x4 : Vec F S512 .f32) (xo5 : Vec F S1024x512 .f32) :
    out1_C_5 c i a2 h2 a3 h3 a4 h4 a5 h5 a6 h6 a7 h7 hc0 hc1 x0 x1 x2 x3 x4 xo5
      = k1_pay1 (k1_pay3 x0 (headSlab i x1) (headSlab i x2) (headSlabW i x3) xo5) x4 := by
  unfold out1_C_5
  rw [View.read_writes_eq_canon _ _ _ (cover1_C_5 c i a2 h2 a3 h3 a4 h4 a5 h5 a6 h6 a7 h7 hc0 hc1 x0 x1 x2 x3 x4 xo5)]
  unfold kernelRun1_C
  dsimp only
  sl_unfold_words
  rw [View.canon_cons_unit_zero (S := S1024x512) hz2, View.readCov_unit_zero (S := S1024x512) _ hz2]
  simp only [View.readAt_eq_ld, h2.read_unread, h3.read_unread, h4.read_unread, h5.read_unread, h6.read_unread,
    h7.read_unread, View.ld_unit_zero (S := S1024x512) hz2, View.ld_unit_zero (S := S512) hz1]
  rfl

variable (V : (c : Dev nD) → (b : Ref sig .tc) → Buf (Elt F) ((c : Thread nD τ).loc b))

/-- The slab offsets the body computes and every window's block index at point t = 16·q + j: the body cuts slab j; the
    query and output windows sit on row tile q; the other windows hold their whole arrays. Decided over the 256 points. -/
theorem idx_all : ∀ t : Fin cfg1.N, k1_off1 (grid1.coords t) = ![t.val % 16, 0, 0] ∧ k1_off2 (grid1.coords t) = ![t.val % 16, 0, 0]
    ∧ win1_0.index t = ![t.val / 16, 0] ∧ win1_1.index t = ![0, 0, 0] ∧ win1_2.index t = ![0, 0, 0]
    ∧ win1_3.index t = ![0, 0, 0] ∧ win1_4.index t = ![0] ∧ win1_5.index t = ![t.val / 16, 0] :=
  (by decide +kernel : ∀ t : Fin grid1.N, _)

theorem lt_N (t : Fin cfg1.N) : t.val < 256 := lt_of_lt_of_eq t.isLt (show cfg1.N = 256 from N_1)

/-- The head point t works on. -/
def head (t : Fin cfg1.N) : Fin 16 := ⟨t.val % 16, Nat.mod_lt _ (by decide)⟩

/-- Row r of the row tile point t works on, as a row of the whole query array. -/
def row (t : Fin cfg1.N) (r : Fin 1024) : Fin 16384 :=
  ⟨t.val / 16 * 1024 + r.val, by have := lt_N t; have := r.isLt; omega⟩

/-- The slab the body cuts out of a [16,1024,512] array at point t is slab `head t`. -/
theorem headSlab_apply (t : Fin cfg1.N) (x : Vec F S16x1024x512 .bf16) (p : Fin 1) (i : Fin 1024) (j : Fin 512) :
    headSlab (grid1.coords t) x (ix3 p i j) = x (ix3 (head t) i j) := by
  unfold headSlab
  show x _ = x _
  refine congrArg x (funext fun a => Fin.ext ?_)
  have h := (idx_all t).1
  have hp : p.val = 0 := by omega
  match a with
  | ⟨0, _⟩ => show k1_off1 (grid1.coords t) 0 + 1 * p.val = t.val % 16; rw [congrFun h 0, hp]; show t.val % 16 + 1 * 0 = t.val % 16; omega
  | ⟨1, _⟩ => show k1_off1 (grid1.coords t) 1 + 1 * i.val = i.val; rw [congrFun h 1]; show 0 + 1 * i.val = i.val; omega
  | ⟨2, _⟩ => show k1_off1 (grid1.coords t) 2 + 1 * j.val = j.val; rw [congrFun h 2]; show 0 + 1 * j.val = j.val; omega

/-- The slab the body cuts out of the [16,512,512] weights at point t is slab `head t`. -/
theorem headSlabW_apply (t : Fin cfg1.N) (x : Vec F S16x512x512 .bf16) (p : Fin 1) (i : Fin 512) (j : Fin 512) :
    headSlabW (grid1.coords t) x (ix3 p i j) = x (ix3 (head t) i j) := by
  unfold headSlabW
  show x _ = x _
  refine congrArg x (funext fun a => Fin.ext ?_)
  have h := (idx_all t).2.1
  have hp : p.val = 0 := by omega
  match a with
  | ⟨0, _⟩ => show k1_off2 (grid1.coords t) 0 + 1 * p.val = t.val % 16; rw [congrFun h 0, hp]; show t.val % 16 + 1 * 0 = t.val % 16; omega
  | ⟨1, _⟩ => show k1_off2 (grid1.coords t) 1 + 1 * i.val = i.val; rw [congrFun h 1]; show 0 + 1 * i.val = i.val; omega
  | ⟨2, _⟩ => show k1_off2 (grid1.coords t) 2 + 1 * j.val = j.val; rw [congrFun h 2]; show 0 + 1 * j.val = j.val; omega

/-- The query block at point t is row tile q of the query array. -/
theorem blk_query (c : Dev nD) (t : Fin cfg1.N) (r : Fin 1024) (o : Fin 512) :
    (iblk1 V c 0 t : Vec F S1024x512 .bf16) (ix2 r o) = V c main_v6 (ix2 (row t r) o) := by
  unfold iblk1
  rw [View.read_apply]
  show V c main_v6 _ = V c main_v6 _
  refine congrArg (V c main_v6) (funext fun a => Fin.ext ?_)
  have h := (idx_all t).2.2.1
  match a with
  | ⟨0, _⟩ => show win1_0.index t 0 * 1024 + 1 * r.val = t.val / 16 * 1024 + r.val; rw [congrFun h 0]; show t.val / 16 * 1024 + 1 * r.val = _; omega
  | ⟨1, _⟩ => show win1_0.index t 1 * 512 + 1 * o.val = o.val; rw [congrFun h 1]; show 0 * 512 + 1 * o.val = o.val; omega

/-- The key window's block at every point is the whole key array. -/
theorem blk_key (c : Dev nD) (t : Fin cfg1.N) : (iblk1 V c 1 t : Vec F S16x1024x512 .bf16) = V c main_v2_0 := by
  funext y
  unfold iblk1
  rw [View.read_apply]
  show V c main_v2_0 _ = V c main_v2_0 y
  refine congrArg (V c main_v2_0) (funext fun a => Fin.ext ?_)
  have h := (idx_all t).2.2.2.1
  match a with
  | ⟨0, _⟩ => show win1_1.index t 0 * 16 + 1 * (y 0).val = (y 0).val; rw [congrFun h 0]; show 0 * 16 + 1 * (y 0).val = (y 0).val; omega
  | ⟨1, _⟩ => show win1_1.index t 1 * 1024 + 1 * (y 1).val = (y 1).val; rw [congrFun h 1]; show 0 * 1024 + 1 * (y 1).val = (y 1).val; omega
  | ⟨2, _⟩ => show win1_1.index t 2 * 512 + 1 * (y 2).val = (y 2).val; rw [congrFun h 2]; show 0 * 512 + 1 * (y 2).val = (y 2).val; omega

/-- The value window's block at every point is the whole value array. -/
theorem blk_val (c : Dev nD) (t : Fin cfg1.N) : (iblk1 V c 2 t : Vec F S16x1024x512 .bf16) = V c main_v2_1 := by
  funext y
  unfold iblk1
  rw [View.read_apply]
  show V c main_v2_1 _ = V c main_v2_1 y
  refine congrArg (V c main_v2_1) (funext fun a => Fin.ext ?_)
  have h := (idx_all t).2.2.2.2.1
  match a with
  | ⟨0, _⟩ => show win1_2.index t 0 * 16 + 1 * (y 0).val = (y 0).val; rw [congrFun h 0]; show 0 * 16 + 1 * (y 0).val = (y 0).val; omega
  | ⟨1, _⟩ => show win1_2.index t 1 * 1024 + 1 * (y 1).val = (y 1).val; rw [congrFun h 1]; show 0 * 1024 + 1 * (y 1).val = (y 1).val; omega
  | ⟨2, _⟩ => show win1_2.index t 2 * 512 + 1 * (y 2).val = (y 2).val; rw [congrFun h 2]; show 0 * 512 + 1 * (y 2).val = (y 2).val; omega

/-- The weight window's block at every point is the whole re-laid weight array. -/
theorem blk_wf (c : Dev nD) (t : Fin cfg1.N) : (iblk1 V c 3 t : Vec F S16x512x512 .bf16) = V c main_v5 := by
  funext y
  unfold iblk1
  rw [View.read_apply]
  show V c main_v5 _ = V c main_v5 y
  refine congrArg (V c main_v5) (funext fun a => Fin.ext ?_)
  have h := (idx_all t).2.2.2.2.2.1
  match a with
  | ⟨0, _⟩ => show win1_3.index t 0 * 16 + 1 * (y 0).val = (y 0).val; rw [congrFun h 0]; show 0 * 16 + 1 * (y 0).val = (y 0).val; omega
  | ⟨1, _⟩ => show win1_3.index t 1 * 512 + 1 * (y 1).val = (y 1).val; rw [congrFun h 1]; show 0 * 512 + 1 * (y 1).val = (y 1).val; omega
  | ⟨2, _⟩ => show win1_3.index t 2 * 512 + 1 * (y 2).val = (y 2).val; rw [congrFun h 2]; show 0 * 512 + 1 * (y 2).val = (y 2).val; omega

/-- The bias window's block at every point is the whole bias. -/
theorem blk_bf (c : Dev nD) (t : Fin cfg1.N) : (iblk1 V c 4 t : Vec F S512 .f32) = V c main_arg7 := by
  funext y
  unfold iblk1
  rw [View.read_apply]
  show V c main_arg7 _ = V c main_arg7 y
  refine congrArg (V c main_arg7) (funext fun a => Fin.ext ?_)
  have h := (idx_all t).2.2.2.2.2.2.1
  match a with
  | ⟨0, _⟩ => show win1_4.index t 0 * 512 + 1 * (y 0).val = (y 0).val; rw [congrFun h 0]; show 0 * 512 + 1 * (y 0).val = (y 0).val; omega

/-- Where block t of the result array sits: entry (r, o) of the block is entry (row t r, o) of the array. -/
theorem emb_out (t : Fin cfg1.N) (r : Fin 1024) (o : Fin 512) :
    ((cfg1.win 5).blk t).view.emb (ix2 r o) = ix2 (row t r) o := by
  refine funext fun a => Fin.ext ?_
  have h := (idx_all t).2.2.2.2.2.2.2
  match a with
  | ⟨0, _⟩ => show win1_5.index t 0 * 1024 + 1 * r.val = t.val / 16 * 1024 + r.val; rw [congrFun h 0]; show t.val / 16 * 1024 + 1 * r.val = _; omega
  | ⟨1, _⟩ => show win1_5.index t 1 * 512 + 1 * o.val = o.val; rw [congrFun h 1]; show 0 * 512 + 1 * o.val = o.val; omega

/-- An index of the result array lies in point t's block iff each coordinate is in the block's range. -/
theorem mem_blk_out (t : Fin cfg1.N) (i : S16384x512.Idx) :
    i ∈ ((cfg1.win 5).blk t).view.set ↔ ∀ a : Fin 2, win1_5.index t a * S1024x512.size a ≤ (i a).val
      ∧ (i a).val < win1_5.index t a * S1024x512.size a + S1024x512.size a := by
  show i ∈ ((View.whole main_v7).slice (win1_5.rect t)).set ↔ _
  rw [View.set_slice_whole, Rect.mem_set_unit]
  exact Iff.rfl

end Cert.MemAttn.R1

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibSoftmaxRow.lean ====
/-
  The softmax of a row of extended reals, and the two facts that let a row-blocked attention kernel meet a
  reference written with whole arrays.

  `softmaxRow L s` is entry `s` of the softmax of the row `L`: the exponential of the entry's distance below the
  row's largest entry, divided by the sum of those exponentials over the row. A kernel computes it on a block of rows
  as a tree of vector operations — the row maxima kept as a column and stretched back over the rows, a pointwise
  exponential, the row sums kept as a column and stretched back, a pointwise quotient —; read at entry (r, s) that
  tree is `softmaxRow` of row r (`softmax_rows_apply`). The scores themselves come from a contraction; when the
  two rows contracted hold real numbers, multiplying every entry of one row by 1/c before contracting is dividing the
  contraction by c (`sum_scaled_mul`) — on the extended reals this is a law of real numbers only, since a product
  does not move across a sum that meets opposite infinities. Stated over arbitrary extents.
-/
import proofs.«181606_j26877905338696_2_alg».proof.Proof.LibRowLayout
import proofs.«181606_j26877905338696_2_alg».proof.Proof.LibRealSums
import Idealize.ShloMosaic.PureOps.Ideal.Laws
import Idealize.ShloMosaic.Lib.ValueLayout

noncomputable section

namespace Cert.Lib.SoftmaxRow

open Idealize.ShloMosaic Idealize.ShloMosaic.ValueIdx
open Cert.KernelIdeal.MvnKernel

/-- The largest entry of a row of extended reals (−∞ for the empty row). -/
def rowMax {n : ℕ} (L : Fin n → EReal) : EReal := (Finset.univ : Finset (Fin n)).fold max ⊥ L

/-- Entry `s` of the softmax of the row `L`. -/
def softmaxRow {n : ℕ} (L : Fin n → EReal) (s : Fin n) : EReal :=
  Ideal.div (Ideal.exp (L s - rowMax L)) (∑ k : Fin n, Ideal.exp (L k - rowMax L))

/-- The f32 pattern of −∞ denotes the least extended real. -/
theorem ofBits_neg_inf : Ideal.ofBits .f32 0xFF800000#32 = ⊥ := by simp [Ideal.ofBits, Ideal.ieee]

/-- Taking the larger of −∞ and a fold of `max` that started from −∞ changes nothing. -/
theorem max_bot_rowMax {n : ℕ} (L : Fin n → EReal) : max ⊥ (rowMax L) = rowMax L := max_eq_right bot_le

/-- A block of rows put through the softmax tree of vector operations, read at entry (r, s): the softmax of row r at
    s. The column of row maxima and the column of row sums are each a lane reduction, cast to a column and stretched
    back over the row. -/
theorem softmax_rows_apply {a b : ℕ} (Lg : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec FTy.f32.bits) = FKind.maximumf.neutral .f32 hφ)
    (hadd : (0x00000000#32 : BitVec FTy.f32.bits) = FKind.add.neutral .f32 hφ) (r : Fin a) (s : Fin b) :
    divf (exp (subf Lg (broadcastTo ⟨2, ![a, b]⟩ (shapeCast ⟨2, ![a, 1]⟩
        (multiReduction .maximumf [1] ⟨1, ![a]⟩ Lg 0xFF800000#32 hr hφ hmax) hc) hb)))
      (broadcastTo ⟨2, ![a, b]⟩ (shapeCast ⟨2, ![a, 1]⟩
        (multiReduction .add [1] ⟨1, ![a]⟩
          (exp (subf Lg (broadcastTo ⟨2, ![a, b]⟩ (shapeCast ⟨2, ![a, 1]⟩
            (multiReduction .maximumf [1] ⟨1, ![a]⟩ Lg 0xFF800000#32 hr hφ hmax) hc) hb)))
          0x00000000#32 hr hφ hadd) hc) hb) (ix2 r s)
      = softmaxRow (fun k => Lg (ix2 r k)) s := by
  -- the stretched column of maxima holds, all along row r, that row's maximum
  have hM : ∀ k : Fin b, broadcastTo ⟨2, ![a, b]⟩ (shapeCast ⟨2, ![a, 1]⟩
        (multiReduction .maximumf [1] ⟨1, ![a]⟩ Lg 0xFF800000#32 hr hφ hmax) hc) hb (ix2 r k)
      = rowMax fun k => Lg (ix2 r k) := fun k =>
    (broadcastTo_a1_ab_apply _ hb r k).trans ((shapeCast_a_a1_apply _ hc r 0).trans
      ((multiReduction_max_row Lg _ hr hφ hmax r).trans (by rw [ofBits_neg_inf]; rfl)))
  -- so the exponentials along row r are those of the softmax
  have hE : ∀ k : Fin b, exp (subf Lg (broadcastTo ⟨2, ![a, b]⟩ (shapeCast ⟨2, ![a, 1]⟩
        (multiReduction .maximumf [1] ⟨1, ![a]⟩ Lg 0xFF800000#32 hr hφ hmax) hc) hb)) (ix2 r k)
      = Ideal.exp (Lg (ix2 r k) - rowMax fun k => Lg (ix2 r k)) := fun k => by
    show Ideal.exp (Lg (ix2 r k) - broadcastTo ⟨2, ![a, b]⟩ _ hb (ix2 r k)) = _
    rw [hM k]
  show Ideal.div (exp (subf Lg _) (ix2 r s)) (broadcastTo ⟨2, ![a, b]⟩ _ hb (ix2 r s)) = _
  rw [hE s]
  refine congrArg (Ideal.div _) ?_
  refine (broadcastTo_a1_ab_apply _ hb r s).trans ((shapeCast_a_a1_apply _ hc r 0).trans
    ((multiReduction_add_row _ _ hr hφ hadd r).trans ?_))
  exact Finset.sum_congr rfl fun k _ => hE k

/-- Real rows: scaling every entry of the left row by the reciprocal of a nonzero real `c` before contracting is
    dividing the contraction by `c`. -/
theorem sum_scaled_mul {K : ℕ} (c : ℝ) (hc : c ≠ 0) (x w : Fin K → EReal)
    (hx : ∀ k, ∃ r : ℝ, x k = r) (hw : ∀ k, ∃ r : ℝ, w k = r) :
    ∑ k : Fin K, (x k * ((1 / c : ℝ) : EReal)) * w k = Ideal.div (∑ k : Fin K, x k * w k) (c : EReal) := by
  choose x' hx' using hx; choose w' hw' using hw
  simp only [hx', hw']
  rw [Ideal.div_coe hc, Cert.Lib.RealSums.sum_coe_mul_coe, ← EReal.coe_mul]
  have h : ∀ k ∈ (Finset.univ : Finset (Fin K)),
      ((x' k : EReal) * ((1 / c : ℝ) : EReal)) * (w' k : EReal) = ((x' k * (1 / c) * w' k : ℝ) : EReal) := by
    intro k _; rw [← EReal.coe_mul, ← EReal.coe_mul]
  rw [Finset.sum_congr rfl h, ← Cert.Lib.RealSums.coe_sum]
  refine congrArg _ ?_
  rw [Finset.sum_mul]
  exact Finset.sum_congr rfl fun k _ => by ring

end Cert.Lib.SoftmaxRow

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Payloads0.lean ====
/-
  The memory kernel's arithmetic read at an index.

  For one head the memory rows go through two dense layers: the KEY layer, whose output rows are normalised by a
  softmax along the output axis, and the VALUE layer. Each layer contracts a memory row with a weight row over the
  feature axis and adds the bias. Below the two results are read at an entry (m, o) given by coordinates; a change of
  float format is the identity at the ideal values, so only the sums and the softmax remain.
-/
import proofs.«181606_j26877905338696_2_alg».proof.Proof.Gen.KernelIdeal.Skeleton
import proofs.«181606_j26877905338696_2_alg».proof.Proof.LibSoftmaxRow
import proofs.«181606_j26877905338696_2_alg».proof.Proof.LibRowLayout
import proofs.«181606_j26877905338696_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.MemAttn.Pay

open Cert.KernelIdeal Cert.KernelIdeal.Gen Idealize.ShloMosaic Idealize.ShloMosaic.ValueIdx Cert.Lib.SoftmaxRow
open Cert.Lib.PlainDot
open scoped BigOperators

/-- A plain product at (r, c): the sum over k of left (r, k) times right (k, c). -/
theorem mm_ix2 {R K C : ℕ} (x : (⟨2, ![R, K]⟩ : Shape).Idx → EReal) (w : (⟨2, ![K, C]⟩ : Shape).Idx → EReal)
    (r : Fin R) (c : Fin C) : mm x w (ix2 r c) = ∑ k : Fin K, x (ix2 r k) * w (ix2 k c) := by
  unfold mm
  refine Finset.sum_congr rfl fun k _ => ?_
  have el : rowIdx (ix2 r c) k = ix2 r k := funext fun a => match a with | ⟨0, _⟩ => rfl | ⟨1, _⟩ => rfl
  have er : colIdx (ix2 r c) k = ix2 k c := funext fun a => match a with | ⟨0, _⟩ => rfl | ⟨1, _⟩ => rfl
  rw [el, er]

/-- One dense layer of the memory kernel at (m, o): the memory row m contracted with the weight row o, plus the
    bias at o. -/
theorem denseBlock_apply (v0 : Vec Ideal S1x1024x512 .f32) (w : Vec Ideal S1x512x512 .f32) (b : Vec Ideal S1x1x512 .f32)
    (m : Fin 1024) (o : Fin 512) :
    addf (matmul dot_S1024x512_S512x512_S1024x512_1_0_0_1_n_n none (k0_pay2 (F := Ideal) v0)
        (transpose S512x512 [1, 0] (truncf .bf16 (shapeCast S512x512 w shapeCasts_S1x512x512_S512x512) bitsLt_bf16_f32)
          transposes_S512x512_p1_0_S512x512)
        (constant (F := Ideal) S1024x512 .f32 0x00000000#32))
      (broadcastTo S1024x512 (shapeCast S1x512 b shapeCasts_S1x1x512_S1x512) broadcasts_S1x512_S1024x512) (ix2 m o)
      = (∑ d : Fin 512, v0 (ix3 (0 : Fin 1) m d) * w (ix3 (0 : Fin 1) o d)) + b (ix3 (0 : Fin 1) (0 : Fin 1) o) := by
  show FloatOps.matmul dot_S1024x512_S512x512_S1024x512_1_0_0_1_n_n none _ _ _ (ix2 m o)
      + broadcastTo S1024x512 _ broadcasts_S1x512_S1024x512 (ix2 m o) = _
  have hb : broadcastTo S1024x512 (shapeCast S1x512 b shapeCasts_S1x1x512_S1x512) broadcasts_S1x512_S1024x512 (ix2 m o)
      = b (ix3 (0 : Fin 1) (0 : Fin 1) o) :=
    (broadcastTo_1b_ab_apply _ broadcasts_S1x512_S1024x512 m o).trans
      (shapeCast_1ab_ab_apply b shapeCasts_S1x1x512_S1x512 0 o)
  rw [hb]
  refine congrArg (· + b (ix3 (0 : Fin 1) (0 : Fin 1) o)) ?_
  refine (matmul_zero_apply _ rfl none _ _ (ix2 m o)).trans ((mm_ix2 _ _ m o).trans ?_)
  refine Finset.sum_congr rfl fun d _ => ?_
  have hl : k0_pay2 (F := Ideal) v0 (ix2 m d) = v0 (ix3 (0 : Fin 1) m d) := by
    unfold k0_pay2
    exact shapeCast_1ab_ab_apply v0 shapeCasts_S1x1024x512_S1024x512 m d
  have hr : transpose S512x512 [1, 0] (truncf (F := Ideal) .bf16 (shapeCast S512x512 w shapeCasts_S1x512x512_S512x512) bitsLt_bf16_f32)
        transposes_S512x512_p1_0_S512x512 (ix2 d o) = w (ix3 (0 : Fin 1) o d) :=
    (transpose_ix2_apply _ transposes_S512x512_p1_0_S512x512 d o).trans
      (shapeCast_1ab_ab_apply w shapeCasts_S1x512x512_S512x512 o d)
  rw [hl, hr]

/-- The value layer at (m, o). -/
theorem valBlock_apply (v0 : Vec Ideal S1x1024x512 .f32) (v6 : Vec Ideal S1x512x512 .f32) (v26 : Vec Ideal S1x1x512 .f32)
    (m : Fin 1024) (o : Fin 512) :
    k0_pay1 (F := Ideal) (k0_pay4 v0 v6 v26) (ix3 (0 : Fin 1) m o)
      = (∑ d : Fin 512, v0 (ix3 (0 : Fin 1) m d) * v6 (ix3 (0 : Fin 1) o d)) + v26 (ix3 (0 : Fin 1) (0 : Fin 1) o) := by
  unfold k0_pay1
  refine (shapeCast_ab_1ab_apply _ shapeCasts_S1024x512_S1x1024x512 0 m o).trans ?_
  unfold k0_pay4
  exact denseBlock_apply v0 v6 v26 m o

/-- The key layer followed by the softmax along the output axis, at (m, o). -/
theorem keyBlock_apply (v0 : Vec Ideal S1x1024x512 .f32) (v3 : Vec Ideal S1x512x512 .f32) (v11 : Vec Ideal S1x1x512 .f32)
    (m : Fin 1024) (o : Fin 512) :
    k0_pay3 (F := Ideal) v0 v3 v11 (ix3 (0 : Fin 1) m o)
      = softmaxRow (fun o' : Fin 512 => (∑ d : Fin 512, v0 (ix3 (0 : Fin 1) m d) * v3 (ix3 (0 : Fin 1) o' d))
          + v11 (ix3 (0 : Fin 1) (0 : Fin 1) o')) o := by
  unfold k0_pay3
  refine (shapeCast_ab_1ab_apply _ shapeCasts_S1024x512_S1x1024x512 0 m o).trans ?_
  refine (softmax_rows_apply _ reduces_S1024x512_S1024 shapeCasts_S1024_S1024x1 broadcasts_S1024x1_S1024x512
    (.inl rfl) rfl rfl m o).trans ?_
  exact congrArg (fun L => softmaxRow L o) (funext fun o' => denseBlock_apply v0 v3 v11 m o')

end Cert.MemAttn.Pay

end
-- ==== Proof.Payloads1.lean ====
/-
  The main kernel's arithmetic read at an index.

  One step of the main kernel adds, to the running output block, one head's contribution: the query rows are scored
  against the head's keys by a contraction over the feature axis, each row of scores is normalised by a softmax along
  the memory axis, the weights average the head's value rows, and the result goes through the head's slice of the last
  dense layer. The first step starts from the zero block and the last one adds the bias row. Each of these is a pure
  function of the vectors read from memory; below each is read at an entry (r, o') given by coordinates.
-/
import proofs.«181606_j26877905338696_2_alg».proof.Proof.Gen.KernelIdeal.Skeleton
import proofs.«181606_j26877905338696_2_alg».proof.Proof.Payloads0
import proofs.«181606_j26877905338696_2_alg».proof.Proof.LibSoftmaxRow
import proofs.«181606_j26877905338696_2_alg».proof.Proof.LibRowLayout
import proofs.«181606_j26877905338696_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.MemAttn.Pay

open Cert.KernelIdeal Cert.KernelIdeal.Gen Idealize.ShloMosaic Idealize.ShloMosaic.ValueIdx Cert.Lib.SoftmaxRow
open Cert.Lib.PlainDot
open scoped BigOperators

/-- The scores of a block of query rows against one head's keys, at (r, m): query row r contracted with key row m
    over the feature axis. -/
theorem scoreBlock_apply (x0 : Vec Ideal S1024x512 .bf16) (kh : Vec Ideal S1x1024x512 .bf16) (r m : Fin 1024) :
    matmul (F := Ideal) (φ₁ := .bf16) (φ₂ := .bf16) dot_S1024x512_S512x1024_S1024x1024_1_0_0_1_n_n none
        (shapeCast S1024x512 x0 shapeCasts_S1024x512_S1024x512)
        (transpose S512x1024 [1, 0] (shapeCast S1024x512 kh shapeCasts_S1x1024x512_S1024x512)
          transposes_S1024x512_p1_0_S512x1024)
        (constant (F := Ideal) S1024x1024 .f32 0x00000000#32) (ix2 r m)
      = ∑ o2 : Fin 512, x0 (ix2 r o2) * kh (ix3 (0 : Fin 1) m o2) := by
  refine (matmul_zero_apply (φ₁ := .bf16) (φ₂ := .bf16) _ rfl none _ _ (ix2 r m)).trans ((mm_ix2 _ _ r m).trans ?_)
  refine Finset.sum_congr rfl fun o2 _ => ?_
  have hl : shapeCast S1024x512 x0 shapeCasts_S1024x512_S1024x512 (ix2 r o2) = x0 (ix2 r o2) :=
    congrFun (shapeCast_self x0 _) _
  have hr : transpose S512x1024 [1, 0] (shapeCast S1024x512 kh shapeCasts_S1x1024x512_S1024x512)
        transposes_S1024x512_p1_0_S512x1024 (ix2 o2 m) = kh (ix3 (0 : Fin 1) m o2) :=
    (transpose_ix2_apply _ transposes_S1024x512_p1_0_S512x1024 o2 m).trans
      (shapeCast_1ab_ab_apply kh shapeCasts_S1x1024x512_S1024x512 m o2)
  rw [hl, hr]

/-- The bias step at (r, o'): the running output there plus the bias at column o'. -/
theorem bias_apply (v36 : Vec Ideal S1024x512 .f32) (v38 : Vec Ideal S512 .f32) (r : Fin 1024) (o' : Fin 512) :
    k1_pay1 (F := Ideal) v36 v38 (ix2 r o') = v36 (ix2 r o') + v38 (ix1 o') := by
  unfold k1_pay1
  show shapeCast S1024x512 v36 shapeCasts_S1024x512_S1024x512 (ix2 r o')
      + broadcastTo S1024x512 (shapeCast S1x512 v38 shapeCasts_S512_S1x512) broadcasts_S1x512_S1024x512 (ix2 r o') = _
  rw [shapeCast_self]
  refine congrArg (v36 (ix2 r o') + ·) ?_
  exact (broadcastTo_1b_ab_apply _ broadcasts_S1x512_S1024x512 r o').trans
    (shapeCast_a_1a_apply v38 shapeCasts_S512_S1x512 0 o')

/-- The starting block is zero everywhere. -/
theorem zero_apply (r : Fin 1024) (o' : Fin 512) : k1_pay2 (F := Ideal) (ix2 r o') = 0 := by
  unfold k1_pay2
  exact Ideal.ofBits_zero_f32

/-- One head's step at (r, o'): the running output there plus the head's contribution — the softmax of query row r's
    scores along the memory axis, averaged over the value rows, then contracted with column o' of the head's slice of
    the last layer's weights. -/
theorem headStep_apply (x0 : Vec Ideal S1024x512 .bf16) (kh vh : Vec Ideal S1x1024x512 .bf16)
    (wh : Vec Ideal S1x512x512 .bf16) (acc : Vec Ideal S1024x512 .f32) (r : Fin 1024) (o' : Fin 512) :
    k1_pay3 (F := Ideal) x0 kh vh wh acc (ix2 r o')
      = acc (ix2 r o') + ∑ o : Fin 512, (∑ m : Fin 1024,
          softmaxRow (fun m' : Fin 1024 => ∑ o2 : Fin 512, x0 (ix2 r o2) * kh (ix3 (0 : Fin 1) m' o2)) m
            * vh (ix3 (0 : Fin 1) m o)) * wh (ix3 (0 : Fin 1) o o') := by
  unfold k1_pay3
  show shapeCast S1024x512 acc shapeCasts_S1024x512_S1024x512 (ix2 r o')
      + FloatOps.matmul (F := Ideal) (φ₁ := .bf16) (φ₂ := .bf16) dot_S1024x512_S512x512_S1024x512_1_0_0_1_n_n none _ _ _ (ix2 r o') = _
  have ha : shapeCast S1024x512 acc shapeCasts_S1024x512_S1024x512 (ix2 r o') = acc (ix2 r o') :=
    congrFun (shapeCast_self acc _) _
  rw [ha]
  refine congrArg (acc (ix2 r o') + ·) ?_
  -- the projection: a contraction over the head's output axis
  refine (matmul_zero_apply (φ₁ := .bf16) (φ₂ := .bf16) _ rfl none _ _ (ix2 r o')).trans ((mm_ix2 _ _ r o').trans ?_)
  refine Finset.sum_congr rfl fun o _ => ?_
  refine congrArg₂ (· * ·) ?_ (shapeCast_1ab_ab_apply wh shapeCasts_S1x512x512_S512x512 o o')
  -- the weighted sum of the value rows: a contraction over the memory axis
  refine (truncf_apply _ bitsLt_bf16_f32 (ix2 r o)).trans ?_
  refine (matmul_zero_apply (φ₁ := .bf16) (φ₂ := .bf16) _ rfl none _ _ (ix2 r o)).trans ((mm_ix2 _ _ r o).trans ?_)
  refine Finset.sum_congr rfl fun m _ => ?_
  refine congrArg₂ (· * ·) ?_ (shapeCast_1ab_ab_apply vh shapeCasts_S1x1024x512_S1024x512 m o)
  -- the weights: the softmax of row r of the scores
  refine (truncf_apply _ bitsLt_bf16_f32 (ix2 r m)).trans ?_
  refine (softmax_rows_apply _ reduces_S1024x1024_S1024 shapeCasts_S1024_S1024x1 broadcasts_S1024x1_S1024x1024
    (.inl rfl) rfl rfl r m).trans ?_
  exact congrArg (fun L => softmaxRow L m) (funext fun m' => scoreBlock_apply x0 kh r m')

end Cert.MemAttn.Pay

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.Spec.lean ====
/-
  Multi-head memory attention as one function of the argument arrays, entry by entry, on the extended reals.

  For each head h the memory rows are sent through two dense layers: the KEY layer followed by a softmax along the
  output axis, and the VALUE layer. A query row n is scored against the keys of head h by a contraction over the
  feature axis, the scores are normalised by a softmax along the memory axis, and the resulting weights average the
  value rows. The heads' outputs, laid side by side (head h in columns h·512 … h·512+511), go through a last dense
  layer with weights Wf and bias bf. Written as sums:

      dense W b h m o   = (Σ_d mems[h,m,d] · W[h,o,d]) + b[h,o]
      memKey h m ·      = softmax of the row  o ↦ dense Wk bk h m o
      memVal h m o      = dense Wv bv h m o
      score h n m       = Σ_o k[n,o] · memKey h m o
      attn h n ·        = softmax of the row  m ↦ score h n m
      headOut h n o     = Σ_m attn h n m · memVal h m o
      proj h n o'       = Σ_o headOut h n o · Wf[o', h·512 + o]
      result n o'       = (Σ_h proj h n o') + bf[o']

  Only sums, products, exponentials and quotients of extended reals occur; nothing is assumed finite.
-/
import proofs.«181606_j26877905338696_2_alg».proof.Proof.LibSoftmaxRow
import proofs.«181606_j26877905338696_2_alg».proof.Proof.LibBlockSum
import Idealize.ShloMosaic.Lib.ValueIdx

noncomputable section

namespace Cert.MemAttn

open Idealize.ShloMosaic Idealize.ShloMosaic.ValueIdx
open Cert.Lib.SoftmaxRow
open scoped BigOperators

/-- Arrays of extended reals of rank one, two and three. -/
abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal

/-- Column h·512 + o of the concatenated heads: position o of head h. -/
def col (h : Fin 16) (o : Fin 512) : Fin 8192 := ⟨h.val * 512 + o.val, by have := h.isLt; have := o.isLt; omega⟩

@[simp] theorem col_val (h : Fin 16) (o : Fin 512) : (col h o).val = h.val * 512 + o.val := rfl

/-- One head's dense layer on a memory row: the contraction over the feature axis plus the bias. -/
def dense (mems : A3 16 1024 512) (W : A3 16 512 512) (b : A2 16 512) (h : Fin 16) (m : Fin 1024) (o : Fin 512) : EReal :=
  (∑ d : Fin 512, mems (ix3 h m d) * W (ix3 h o d)) + b (ix2 h o)

/-- The keys of head h: the softmax, along the output axis, of the key layer's row. -/
def memKey (mems : A3 16 1024 512) (Wk : A3 16 512 512) (bk : A2 16 512) (h : Fin 16) (m : Fin 1024) (o : Fin 512) : EReal :=
  softmaxRow (fun o' => dense mems Wk bk h m o') o

/-- The score of query row n against memory row m of head h. -/
def score (k : A2 16384 512) (mems : A3 16 1024 512) (Wk : A3 16 512 512) (bk : A2 16 512)
    (h : Fin 16) (n : Fin 16384) (m : Fin 1024) : EReal :=
  ∑ o : Fin 512, k (ix2 n o) * memKey mems Wk bk h m o

/-- The attention weights of query row n in head h: the softmax of its scores along the memory axis. -/
def attn (k : A2 16384 512) (mems : A3 16 1024 512) (Wk : A3 16 512 512) (bk : A2 16 512)
    (h : Fin 16) (n : Fin 16384) (m : Fin 1024) : EReal :=
  softmaxRow (fun m' => score k mems Wk bk h n m') m

/-- Head h's output for query row n: the attention-weighted sum of the value rows. -/
def headOut (k : A2 16384 512) (mems : A3 16 1024 512) (Wk : A3 16 512 512) (bk : A2 16 512)
    (Wv : A3 16 512 512) (bv : A2 16 512) (h : Fin 16) (n : Fin 16384) (o : Fin 512) : EReal :=
  ∑ m : Fin 1024, attn k mems Wk bk h n m * dense mems Wv bv h m o

/-- Head h's share of the last dense layer. -/
def proj (k : A2 16384 512) (mems : A3 16 1024 512) (Wk : A3 16 512 512) (bk : A2 16 512)
    (Wv : A3 16 512 512) (bv : A2 16 512) (Wf : A2 512 8192) (h : Fin 16) (n : Fin 16384) (o' : Fin 512) : EReal :=
  ∑ o : Fin 512, headOut k mems Wk bk Wv bv h n o * Wf (ix2 o' (col h o))

/-- The whole layer's output. -/
def result (k : A2 16384 512) (mems : A3 16 1024 512) (Wk : A3 16 512 512) (bk : A2 16 512)
    (Wv : A3 16 512 512) (bv : A2 16 512) (Wf : A2 512 8192) (bf : A1 512) : A2 16384 512 :=
  fun j => (∑ h : Fin 16, proj k mems Wk bk Wv bv Wf h (j 0) (j 1)) + bf (ix1 (j 1))

/-- A sum over the 8192 concatenated columns is the sum over the heads of each head's 512 columns. -/
theorem sum_cols {M : Type*} [AddCommMonoid M] (f : Fin 8192 → M) :
    ∑ j : Fin 8192, f j = ∑ h : Fin 16, ∑ o : Fin 512, f (col h o) :=
  Cert.Lib.BlockSum.sum_blocks 16 512 f

end Cert.MemAttn

end
-- ==== Proof.Region1Value.lean ====
/-
  The second kernel region's result array, at the ideal values.

  For a query row n, a head h and an output column o', the head's term is

      headTerm h n o' = Σ_o ( Σ_m softmax_m( Σ_o2 Q[n,o2] · K[h,m,o2] ) · Vl[h,m,o] ) · W[h,o,o']

  of the arrays the region finds: the queries Q, the key and value arrays K and Vl, and the re-laid last-layer weights
  W. Along one row tile the output buffer holds, after head j, the sum of the terms of heads 0 … j — the zero the first
  head stores adds nothing — and after head 15 that sum plus the bias row; that is what is written back, so the result
  array is, at (n, o'), the sum over all sixteen heads of the head's term, plus the bias.
-/
import proofs.«181606_j26877905338696_2_alg».proof.Proof.Region1
import proofs.«181606_j26877905338696_2_alg».proof.Proof.Payloads1
import proofs.«181606_j26877905338696_2_alg».proof.Proof.Spec

noncomputable section

namespace Cert.MemAttn.R1V

open Idealize.ShloMosaic Idealize.ShloMosaic.TcCoe Idealize.SL.Sem Idealize.ShloMosaic.ValueIdx
open Idealize.ShloMosaic.Pipeline (Dat)
open Cert.KernelIdeal Cert.KernelIdeal.Gen Cert.Lib.SoftmaxRow Cert.MemAttn.R1
open scoped BigOperators

variable (V : (c : Dev nD) → (b : Ref sig .tc) → Buf (Elt Ideal) ((c : Thread nD τ).loc b))

/-- Head h's term for query row n and output column o', as a function of the four arrays. -/
def headTermOf (Q : Cert.MemAttn.A2 16384 512) (K Vl : Cert.MemAttn.A3 16 1024 512) (W : Cert.MemAttn.A3 16 512 512)
    (h : Fin 16) (n : Fin 16384) (o' : Fin 512) : EReal :=
  ∑ o : Fin 512, (∑ i : Fin 1024, softmaxRow (fun m' : Fin 1024 => ∑ o2 : Fin 512,
      Q (ix2 n o2) * K (ix3 h m' o2)) i * Vl (ix3 h i o)) * W (ix3 h o o')

/-- Head h's term from the arrays the region finds. -/
def headTerm (c : Dev nD) (h : Fin 16) (n : Fin 16384) (o' : Fin 512) : EReal :=
  headTermOf (V c main_v6) (V c main_v2_0) (V c main_v2_1) (V c main_v5) h n o'

/-- The same with the head a natural number: zero past the sixteen heads. -/
def headTermN (c : Dev nD) (n : Fin 16384) (o' : Fin 512) (j : ℕ) : EReal :=
  if hj : j < 16 then headTerm V c ⟨j, hj⟩ n o' else 0

/-- The sum of the terms of heads 0 … j. -/
def partialSum (c : Dev nD) (n : Fin 16384) (o' : Fin 512) (j : ℕ) : EReal :=
  ∑ j' ∈ Finset.range (j + 1), headTermN V c n o' j'

theorem partialSum_zero (c : Dev nD) (n : Fin 16384) (o' : Fin 512) :
    partialSum V c n o' 0 = headTermN V c n o' 0 := Finset.sum_range_one _

theorem partialSum_succ (c : Dev nD) (n : Fin 16384) (o' : Fin 512) (j : ℕ) :
    partialSum V c n o' (j + 1) = partialSum V c n o' j + headTermN V c n o' (j + 1) := Finset.sum_range_succ _ _

theorem headTermN_head (c : Dev nD) (t : Fin cfg1.N) (n : Fin 16384) (o' : Fin 512) :
    headTermN V c n o' (t.val % 16) = headTerm V c (head t) n o' := dif_pos (Nat.mod_lt _ (by decide))

/-- All sixteen heads. -/
theorem partialSum_full (c : Dev nD) (n : Fin 16384) (o' : Fin 512) :
    partialSum V c n o' 15 = ∑ h : Fin 16, headTerm V c h n o' := by
  unfold partialSum
  rw [Finset.sum_range]
  exact Finset.sum_congr rfl fun h _ => dif_pos h.isLt

/-- One step of the body at point t, read at entry (r, o') of the tile: the head's term for the tile's row r is added
    to what the buffer held. -/
theorem step_apply (c : Dev nD) (t : Fin cfg1.N) (acc : Vec Ideal S1024x512 .f32) (r : Fin 1024) (o' : Fin 512) :
    k1_pay3 (F := Ideal) (iblk1 V c 0 t) (headSlab (grid1.coords t) (iblk1 V c 1 t))
        (headSlab (grid1.coords t) (iblk1 V c 2 t)) (headSlabW (grid1.coords t) (iblk1 V c 3 t)) acc (ix2 r o')
      = acc (ix2 r o') + headTerm V c (head t) (row t r) o' := by
  rw [blk_key, blk_val, blk_wf]
  refine (Cert.MemAttn.Pay.headStep_apply _ _ _ _ _ r o').trans ?_
  unfold headTerm headTermOf
  simp only [headSlab_apply, headSlabW_apply, blk_query]

/-- The bias the region finds, at output column o'. -/
abbrev biasAt (c : Dev nD) (o' : Fin 512) : EReal := V c main_arg7 (ix1 o')

/-- Within a row tile the row of the tile does not change from one point to the next. -/
theorem row_succ (n : ℕ) (hn : n + 1 < cfg1.N) (h0 : ¬(n + 1) % 16 = 0) (r : Fin 1024) :
    row ⟨n + 1, hn⟩ r = row ⟨n, Nat.lt_of_succ_lt hn⟩ r :=
  Fin.ext (by show (n + 1) / 16 * 1024 + r.val = n / 16 * 1024 + r.val; omega)

/-- What the output buffer holds after the body at position n, at entry (r, o') of the tile: the sum of the terms of
    the heads done so far for the tile's row r, and after the last head also the bias. By induction on the position. -/
theorem outsAt_apply (c : Dev nD) : ∀ (n : ℕ) (hn : n < cfg1.N) (r : Fin 1024) (o' : Fin 512),
    outsAt1 V c n hn (ix2 r o')
      = partialSum V c (row ⟨n, hn⟩ r) o' (n % 16) + (if n % 16 = 15 then biasAt V c o' else 0)
  | 0, hn, r, o' => by
    rw [outsAt1_A V c ⟨0, hn⟩ (Nat.zero_mod 16) (by show ¬0 % 16 = 15; decide), out_A, step_apply, Cert.MemAttn.Pay.zero_apply, zero_add]
    show _ = partialSum V c (row ⟨0, hn⟩ r) o' 0 + (if 0 % 16 = 15 then _ else 0)
    rw [partialSum_zero, if_neg (by decide), add_zero]
    exact (headTermN_head V c ⟨0, hn⟩ _ o').symm
  | n + 1, hn, r, o' => by
    have hN : n + 1 < 256 := lt_of_lt_of_eq hn (show cfg1.N = 256 from N_1)
    have ih := outsAt_apply c n (Nat.lt_of_succ_lt hn) r o'
    by_cases h0 : (n + 1) % 16 = 0
    · have h1 : ¬(n + 1) % 16 = 15 := by omega
      rw [outsAt1_A V c ⟨n + 1, hn⟩ h0 h1, out_A, step_apply, Cert.MemAttn.Pay.zero_apply, zero_add, if_neg h1, add_zero,
        ← headTermN_head V c ⟨n + 1, hn⟩]
      show headTermN V c _ o' ((n + 1) % 16) = partialSum V c _ o' ((n + 1) % 16)
      rw [h0, partialSum_zero]
    · have hn15 : ¬n % 16 = 15 := by omega
      have e : (n + 1) % 16 = n % 16 + 1 := by omega
      by_cases h1 : (n + 1) % 16 = 15
      · rw [outsAt1_C V c ⟨n + 1, hn⟩ h0 h1, out_C, Cert.MemAttn.Pay.bias_apply, step_apply, blk_bf]
        show outsAt1 V c n (Nat.lt_of_succ_lt hn) (ix2 r o') + _ + _ = _
        rw [ih, row_succ n hn h0 r, if_neg hn15, add_zero, if_pos h1, e, partialSum_succ, ← e,
          headTermN_head V c ⟨n + 1, hn⟩]
      · rw [outsAt1_B V c ⟨n + 1, hn⟩ h0 h1, out_B, step_apply]
        show outsAt1 V c n (Nat.lt_of_succ_lt hn) (ix2 r o') + _ = _
        rw [ih, row_succ n hn h0 r, if_neg hn15, add_zero, if_neg h1, add_zero, e, partialSum_succ, ← e,
          headTermN_head V c ⟨n + 1, hn⟩]

/-- The result array: at (n, o') the sum over the sixteen heads of the head's term, plus the bias. -/
def resultArr (c : Dev nD) : Vec Ideal S16384x512 .f32 := fun i =>
  (∑ h : Fin 16, headTerm V c h (i 0) (i 1)) + biasAt V c (i 1)

/-- What a point of the last head writes back is its row tile of `resultArr`. -/
theorem flushed_out (c : Dev nD) (t : Fin cfg1.N) (hf : (cfg1.win 5).flush t = true) :
    (dat1 V c).flushed 5 t = ((cfg1.win 5).blk t).view.read (Elt Ideal) (resultArr V c) := by
  have h15 : t.val % 16 = 15 := (flush1_5 t).mp hf
  show (cfg1.win 5).cut (grid1.coords t) ((dat1 V c).after 5 t) = _
  rw [after1_5]
  funext y
  obtain ⟨r, o', rfl⟩ : ∃ (r : Fin 1024) (o' : Fin 512), y = ix2 r o' := ⟨y 0, y 1, eq_ix2 y⟩
  rw [View.read_apply, emb_out]
  show outsAt1 V c t.val t.isLt (ix2 r o') = resultArr V c (ix2 (row t r) o')
  rw [outsAt_apply, if_pos h15, h15, partialSum_full]
  rfl

/-- The result array after the region: every row tile is written back by the point of its last head. -/
theorem final_out (c : Dev nD) : (dat1 V c).arrAt 5 cfg1.N = resultArr V c :=
  (dat1 V c).arrAt_eq_of_cover 5 (resultArr V c) (fun t hf => flushed_out V c t hf) fun i => by
    have h0 : (i 0).val < 16384 := (i 0).isLt
    have h1 : (i 1).val < 512 := (i 1).isLt
    let tt : Fin cfg1.N := ⟨(i 0).val / 1024 * 16 + 15, lt_of_lt_of_eq (by omega) (show cfg1.N = 256 from N_1).symm⟩
    refine ⟨tt, (flush1_5 tt).mpr (by show ((i 0).val / 1024 * 16 + 15) % 16 = 15; omega), ?_⟩
    rw [mem_blk_out]
    have h := (idx_all tt).2.2.2.2.2.2.2
    have q0 : win1_5.index tt 0 = ((i 0).val / 1024 * 16 + 15) / 16 := congrFun h 0
    have q1 : win1_5.index tt 1 = 0 := congrFun h 1
    intro a
    match a with
    | ⟨0, _⟩ => show win1_5.index tt 0 * 1024 ≤ (i 0).val ∧ (i 0).val < win1_5.index tt 0 * 1024 + 1024; omega
    | ⟨1, _⟩ => show win1_5.index tt 1 * 512 ≤ (i 1).val ∧ (i 1).val < win1_5.index tt 1 * 512 + 512; omega

end Cert.MemAttn.R1V

end
-- ==== Proof.Region0.lean ====
/-
  The first kernel region, block by block.

  The region's grid has one point per head. At point t every window's block is slab t of its array: the memory rows
  of head t, the two weight matrices of head t, the two bias rows of head t, and, for the two outputs, slab t of the
  key array and of the value array. The body loads each input block whole and stores each output block whole, so what
  a point leaves in an output's buffer is the body's arithmetic applied to the point's input blocks.
-/
import proofs.«181606_j26877905338696_2_alg».proof.Proof.Gen.KernelIdeal.Frame
import Idealize.ShloMosaic.Lib.Pipeline.Value
import Idealize.ShloMosaic.Lib.ValueIdx

noncomputable section

namespace Cert.MemAttn.R0

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl

/-- The key output's buffer after the body: the key arithmetic of the memory block, the key weights and the key bias. -/
theorem out_key (x0 : Vec F S1x1024x512 .f32) (x1 : Vec F S1x512x512 .f32) (x2 : Vec F S1x1x512 .f32)
    (x3 : Vec F S1x512x512 .f32) (x4 : Vec F S1x1x512 .f32) : out0_5 x0 x1 x2 x3 x4 = k0_pay3 x0 x1 x2 := by
  unfold out0_5
  rw [View.canon_unit_zero hz3]
  simp only [View.ld_unit_zero (S := S1x1024x512) hz3, View.ld_unit_zero (S := S1x512x512) hz3,
    View.ld_unit_zero (S := S1x1x512) hz3]

/-- The value output's buffer after the body: the value arithmetic of the memory block, the value weights and bias. -/
theorem out_val (x0 : Vec F S1x1024x512 .f32) (x1 : Vec F S1x512x512 .f32) (x2 : Vec F S1x1x512 .f32)
    (x3 : Vec F S1x512x512 .f32) (x4 : Vec F S1x1x512 .f32) : out0_6 x0 x1 x2 x3 x4 = k0_pay1 (k0_pay4 x0 x3 x4) := by
  unfold out0_6
  rw [View.canon_unit_zero hz3]
  simp only [View.ld_unit_zero (S := S1x1024x512) hz3, View.ld_unit_zero (S := S1x512x512) hz3,
    View.ld_unit_zero (S := S1x1x512) hz3]

/-- The head a grid point works on. -/
def head (t : Fin cfg0.N) : Fin 16 := ⟨t.val, lt_of_lt_of_eq t.isLt (show cfg0.N = 16 from N_0)⟩

/-- Every window's block index at point t is (t, 0, 0): decided over the sixteen points. -/
theorem idx_all : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![t.val, 0, 0] :=
  (by decide +kernel : ∀ t : Fin grid0.N, _)

/-- The memory block at point t is the memory rows of head t. -/
theorem blk_mems (c : Dev nD) (t : Fin cfg0.N) (p : Fin 1) (m : Fin 1024) (d : Fin 512) :
    (iblk0 V c 0 t : Vec F S1x1024x512 .f32) (ix3 p m d) = V c main_arg1 (ix3 (head t) m d) := by
  unfold iblk0
  rw [View.read_apply]
  show V c main_arg1 _ = V c main_arg1 _
  refine congrArg (V c main_arg1) (funext fun a => Fin.ext ?_)
  have h := (idx_all t).1
  have hp : p.val = 0 := by omega
  match a with
  | ⟨0, _⟩ => show win0_0.index t 0 * 1 + 1 * p.val = t.val; rw [congrFun h 0, hp]; show t.val * 1 + 1 * 0 = t.val; omega
  | ⟨1, _⟩ => show win0_0.index t 1 * 1024 + 1 * m.val = m.val; rw [congrFun h 1]; show 0 * 1024 + 1 * m.val = m.val; omega
  | ⟨2, _⟩ => show win0_0.index t 2 * 512 + 1 * d.val = d.val; rw [congrFun h 2]; show 0 * 512 + 1 * d.val = d.val; omega

/-- The key-weight block at point t is the key weights of head t. -/
theorem blk_wk (c : Dev nD) (t : Fin cfg0.N) (p : Fin 1) (i : Fin 512) (j : Fin 512) :
    (iblk0 V c 1 t : Vec F S1x512x512 .f32) (ix3 p i j) = V c main_arg2 (ix3 (head t) i j) := by
  unfold iblk0
  rw [View.read_apply]
  show V c main_arg2 _ = V c main_arg2 _
  refine congrArg (V c main_arg2) (funext fun a => Fin.ext ?_)
  have h := (idx_all t).2.1
  have hp : p.val = 0 := by omega
  match a with
  | ⟨0, _⟩ => show win0_1.index t 0 * 1 + 1 * p.val = t.val; rw [congrFun h 0, hp]; show t.val * 1 + 1 * 0 = t.val; omega
  | ⟨1, _⟩ => show win0_1.index t 1 * 512 + 1 * i.val = i.val; rw [congrFun h 1]; show 0 * 512 + 1 * i.val = i.val; omega
  | ⟨2, _⟩ => show win0_1.index t 2 * 512 + 1 * j.val = j.val; rw [congrFun h 2]; show 0 * 512 + 1 * j.val = j.val; omega

/-- The key-bias block at point t is the key bias row of head t. -/
theorem blk_bk (c : Dev nD) (t : Fin cfg0.N) (p : Fin 1) (i : Fin 1) (j : Fin 512) :
    (iblk0 V c 2 t : Vec F S1x1x512 .f32) (ix3 p i j) = V c main_v0 (ix3 (head t) i j) := by
  unfold iblk0
  rw [View.read_apply]
  show V c main_v0 _ = V c main_v0 _
  refine congrArg (V c main_v0) (funext fun a => Fin.ext ?_)
  have h := (idx_all t).2.2.1
  have hp : p.val = 0 := by omega
  match a with
  | ⟨0, _⟩ => show win0_2.index t 0 * 1 + 1 * p.val = t.val; rw [congrFun h 0, hp]; show t.val * 1 + 1 * 0 = t.val; omega
  | ⟨1, _⟩ => show win0_2.index t 1 * 1 + 1 * i.val = i.val; rw [congrFun h 1]; show 0 * 1 + 1 * i.val = i.val; omega
  | ⟨2, _⟩ => show win0_2.index t 2 * 512 + 1 * j.val = j.val; rw [congrFun h 2]; show 0 * 512 + 1 * j.val = j.val; omega

/-- The value-weight block at point t is the value weights of head t. -/
theorem blk_wv (c : Dev nD) (t : Fin cfg0.N) (p : Fin 1) (i : Fin 512) (j : Fin 512) :
    (iblk0 V c 3 t : Vec F S1x512x512 .f32) (ix3 p i j) = V c main_arg4 (ix3 (head t) i j) := by
  unfold iblk0
  rw [View.read_apply]
  show V c main_arg4 _ = V c main_arg4 _
  refine congrArg (V c main_arg4) (funext fun a => Fin.ext ?_)
  have h := (idx_all t).2.2.2.1
  have hp : p.val = 0 := by omega
  match a with
  | ⟨0, _⟩ => show win0_3.index t 0 * 1 + 1 * p.val = t.val; rw [congrFun h 0, hp]; show t.val * 1 + 1 * 0 = t.val; omega
  | ⟨1, _⟩ => show win0_3.index t 1 * 512 + 1 * i.val = i.val; rw [congrFun h 1]; show 0 * 512 + 1 * i.val = i.val; omega
  | ⟨2, _⟩ => show win0_3.index t 2 * 512 + 1 * j.val = j.val; rw [congrFun h 2]; show 0 * 512 + 1 * j.val = j.val; omega

/-- The value-bias block at point t is the value bias row of head t. -/
theorem blk_bv (c : Dev nD) (t : Fin cfg0.N) (p : Fin 1) (i : Fin 1) (j : Fin 512) :
    (iblk0 V c 4 t : Vec F S1x1x512 .f32) (ix3 p i j) = V c main_v1 (ix3 (head t) i j) := by
  unfold iblk0
  rw [View.read_apply]
  show V c main_v1 _ = V c main_v1 _
  refine congrArg (V c main_v1) (funext fun a => Fin.ext ?_)
  have h := (idx_all t).2.2.2.2.1
  have hp : p.val = 0 := by omega
  match a with
  | ⟨0, _⟩ => show win0_4.index t 0 * 1 + 1 * p.val = t.val; rw [congrFun h 0, hp]; show t.val * 1 + 1 * 0 = t.val; omega
  | ⟨1, _⟩ => show win0_4.index t 1 * 1 + 1 * i.val = i.val; rw [congrFun h 1]; show 0 * 1 + 1 * i.val = i.val; omega
  | ⟨2, _⟩ => show win0_4.index t 2 * 512 + 1 * j.val = j.val; rw [congrFun h 2]; show 0 * 512 + 1 * j.val = j.val; omega

/-- Slab h of an array of sixteen slabs, as a block whose leading axis has extent one. -/
def slab {a b : ℕ} {e : EltTy} (A : Vec F ⟨3, ![16, a, b]⟩ e) (h : Fin 16) : Vec F ⟨3, ![1, a, b]⟩ e :=
  fun y => A (ix3 h (y 1) (y 2))

theorem slab_apply {a b : ℕ} {e : EltTy} (A : Vec F ⟨3, ![16, a, b]⟩ e) (h : Fin 16) (p : Fin 1) (i : Fin a) (j : Fin b) :
    slab A h (ix3 p i j) = A (ix3 h i j) := rfl

theorem blk_mems_slab (c : Dev nD) (t : Fin cfg0.N) :
    (iblk0 V c 0 t : Vec F S1x1024x512 .f32) = slab (a := 1024) (b := 512) (e := .f32) (V c main_arg1) (head t) := by
  funext y
  obtain ⟨p, i, j, rfl⟩ : ∃ (p : Fin 1) (i : Fin 1024) (j : Fin 512), y = ix3 p i j := ⟨y 0, y 1, y 2, eq_ix3 y⟩
  exact blk_mems V c t p i j

theorem blk_wk_slab (c : Dev nD) (t : Fin cfg0.N) :
    (iblk0 V c 1 t : Vec F S1x512x512 .f32) = slab (a := 512) (b := 512) (e := .f32) (V c main_arg2) (head t) := by
  funext y
  obtain ⟨p, i, j, rfl⟩ : ∃ (p : Fin 1) (i : Fin 512) (j : Fin 512), y = ix3 p i j := ⟨y 0, y 1, y 2, eq_ix3 y⟩
  exact blk_wk V c t p i j

theorem blk_bk_slab (c : Dev nD) (t : Fin cfg0.N) :
    (iblk0 V c 2 t : Vec F S1x1x512 .f32) = slab (a := 1) (b := 512) (e := .f32) (V c main_v0) (head t) := by
  funext y
  obtain ⟨p, i, j, rfl⟩ : ∃ (p : Fin 1) (i : Fin 1) (j : Fin 512), y = ix3 p i j := ⟨y 0, y 1, y 2, eq_ix3 y⟩
  exact blk_bk V c t p i j

theorem blk_wv_slab (c : Dev nD) (t : Fin cfg0.N) :
    (iblk0 V c 3 t : Vec F S1x512x512 .f32) = slab (a := 512) (b := 512) (e := .f32) (V c main_arg4) (head t) := by
  funext y
  obtain ⟨p, i, j, rfl⟩ : ∃ (p : Fin 1) (i : Fin 512) (j : Fin 512), y = ix3 p i j := ⟨y 0, y 1, y 2, eq_ix3 y⟩
  exact blk_wv V c t p i j

theorem blk_bv_slab (c : Dev nD) (t : Fin cfg0.N) :
    (iblk0 V c 4 t : Vec F S1x1x512 .f32) = slab (a := 1) (b := 512) (e := .f32) (V c main_v1) (head t) := by
  funext y
  obtain ⟨p, i, j, rfl⟩ : ∃ (p : Fin 1) (i : Fin 1) (j : Fin 512), y = ix3 p i j := ⟨y 0, y 1, y 2, eq_ix3 y⟩
  exact blk_bv V c t p i j

/-- The key array: slab h is the key arithmetic of head h's memory rows, key weights and key bias. -/
def keyArr (c : Dev nD) : Vec F S16x1024x512 .bf16 := fun i =>
  k0_pay3 (slab (a := 1024) (b := 512) (e := .f32) (V c main_arg1) (i 0)) (slab (a := 512) (b := 512) (e := .f32) (V c main_arg2) (i 0))
    (slab (a := 1) (b := 512) (e := .f32) (V c main_v0) (i 0)) (ix3 (0 : Fin 1) (i 1) (i 2))

/-- Where block t of the key array sits: entry (p, i, j) of the block is entry (head t, i, j) of the array. -/
theorem emb_key (t : Fin cfg0.N) (p : Fin 1) (i : Fin 1024) (j : Fin 512) :
    ((cfg0.win 5).blk t).view.emb (ix3 p i j) = ix3 (head t) i j := by
  refine funext fun a => Fin.ext ?_
  have h := (idx_all t).2.2.2.2.2.1
  have hp : p.val = 0 := by omega
  match a with
  | ⟨0, _⟩ => show win0_5.index t 0 * 1 + 1 * p.val = t.val; rw [congrFun h 0, hp]; show t.val * 1 + 1 * 0 = t.val; omega
  | ⟨1, _⟩ => show win0_5.index t 1 * 1024 + 1 * i.val = i.val; rw [congrFun h 1]; show 0 * 1024 + 1 * i.val = i.val; omega
  | ⟨2, _⟩ => show win0_5.index t 2 * 512 + 1 * j.val = j.val; rw [congrFun h 2]; show 0 * 512 + 1 * j.val = j.val; omega

/-- What point t writes back into the key array is block t of `keyArr`. -/
theorem flushed_key (c : Dev nD) (t : Fin cfg0.N) :
    (dat0 V c).flushed 5 t = ((cfg0.win 5).blk t).view.read (Elt F) (keyArr V c) := by
  show (cfg0.win 5).cut (grid0.coords t) ((dat0 V c).after 5 t) = _
  rw [after0_5, out_key, blk_mems_slab, blk_wk_slab, blk_bk_slab]
  funext y
  obtain ⟨p, i, j, rfl⟩ : ∃ (p : Fin 1) (i : Fin 1024) (j : Fin 512), y = ix3 p i j := ⟨y 0, y 1, y 2, eq_ix3 y⟩
  rw [View.read_apply, emb_key]
  obtain rfl : p = 0 := Subsingleton.elim _ _
  rfl

/-- An index of the key array lies in point t's block iff each coordinate is in the block's range. -/
theorem mem_blk_key (t : Fin cfg0.N) (i : S16x1024x512.Idx) :
    i ∈ ((cfg0.win 5).blk t).view.set ↔ ∀ a : Fin 3, win0_5.index t a * S1x1024x512.size a ≤ (i a).val
      ∧ (i a).val < win0_5.index t a * S1x1024x512.size a + S1x1024x512.size a := by
  show i ∈ ((View.whole main_v2_0).slice (win0_5.rect t)).set ↔ _
  rw [View.set_slice_whole, Rect.mem_set_unit]
  exact Iff.rfl

/-- The key array after the region: every slab is some point's block, so the array is `keyArr`. -/
theorem final_key (c : Dev nD) : (dat0 V c).arrAt 5 cfg0.N = keyArr V c :=
  (dat0 V c).arrAt_eq_of_cover 5 (keyArr V c) (fun t _ => flushed_key V c t) fun i => by
    have h0 : (i 0).val < 16 := (i 0).isLt
    have h1 : (i 1).val < 1024 := (i 1).isLt
    have h2 : (i 2).val < 512 := (i 2).isLt
    let tt : Fin cfg0.N := ⟨(i 0).val, lt_of_lt_of_eq h0 (show cfg0.N = 16 from N_0).symm⟩
    refine ⟨tt, flush0_5 _, ?_⟩
    rw [mem_blk_key]
    have h := (idx_all tt).2.2.2.2.2.1
    have q0 : win0_5.index tt 0 = (i 0).val := congrFun h 0
    have q1 : win0_5.index tt 1 = 0 := congrFun h 1
    have q2 : win0_5.index tt 2 = 0 := congrFun h 2
    intro a
    match a with
    | ⟨0, _⟩ => show win0_5.index tt 0 * 1 ≤ (i 0).val ∧ (i 0).val < win0_5.index tt 0 * 1 + 1; omega
    | ⟨1, _⟩ => show win0_5.index tt 1 * 1024 ≤ (i 1).val ∧ (i 1).val < win0_5.index tt 1 * 1024 + 1024; omega
    | ⟨2, _⟩ => show win0_5.index tt 2 * 512 ≤ (i 2).val ∧ (i 2).val < win0_5.index tt 2 * 512 + 512; omega

/-- The value array: slab h is the value arithmetic of head h's memory rows, value weights and value bias. -/
def valArr (c : Dev nD) : Vec F S16x1024x512 .bf16 := fun i =>
  k0_pay1 (k0_pay4 (slab (a := 1024) (b := 512) (e := .f32) (V c main_arg1) (i 0)) (slab (a := 512) (b := 512) (e := .f32) (V c main_arg4) (i 0))
    (slab (a := 1) (b := 512) (e := .f32) (V c main_v1) (i 0))) (ix3 (0 : Fin 1) (i 1) (i 2))

/-- Where block t of the val array sits: entry (p, i, j) of the block is entry (head t, i, j) of the array. -/
theorem emb_val (t : Fin cfg0.N) (p : Fin 1) (i : Fin 1024) (j : Fin 512) :
    ((cfg0.win 6).blk t).view.emb (ix3 p i j) = ix3 (head t) i j := by
  refine funext fun a => Fin.ext ?_
  have h := (idx_all t).2.2.2.2.2.2
  have hp : p.val = 0 := by omega
  match a with
  | ⟨0, _⟩ => show win0_6.index t 0 * 1 + 1 * p.val = t.val; rw [congrFun h 0, hp]; show t.val * 1 + 1 * 0 = t.val; omega
  | ⟨1, _⟩ => show win0_6.index t 1 * 1024 + 1 * i.val = i.val; rw [congrFun h 1]; show 0 * 1024 + 1 * i.val = i.val; omega
  | ⟨2, _⟩ => show win0_6.index t 2 * 512 + 1 * j.val = j.val; rw [congrFun h 2]; show 0 * 512 + 1 * j.val = j.val; omega

/-- What point t writes back into the val array is block t of `valArr`. -/
theorem flushed_val (c : Dev nD) (t : Fin cfg0.N) :
    (dat0 V c).flushed 6 t = ((cfg0.win 6).blk t).view.read (Elt F) (valArr V c) := by
  show (cfg0.win 6).cut (grid0.coords t) ((dat0 V c).after 6 t) = _
  rw [after0_6, out_val, blk_mems_slab, blk_wv_slab, blk_bv_slab]
  funext y
  obtain ⟨p, i, j, rfl⟩ : ∃ (p : Fin 1) (i : Fin 1024) (j : Fin 512), y = ix3 p i j := ⟨y 0, y 1, y 2, eq_ix3 y⟩
  rw [View.read_apply, emb_val]
  obtain rfl : p = 0 := Subsingleton.elim _ _
  rfl

/-- An index of the val array lies in point t's block iff each coordinate is in the block's range. -/
theorem mem_blk_val (t : Fin cfg0.N) (i : S16x1024x512.Idx) :
    i ∈ ((cfg0.win 6).blk t).view.set ↔ ∀ a : Fin 3, win0_6.index t a * S1x1024x512.size a ≤ (i a).val
      ∧ (i a).val < win0_6.index t a * S1x1024x512.size a + S1x1024x512.size a := by
  show i ∈ ((View.whole main_v2_1).slice (win0_6.rect t)).set ↔ _
  rw [View.set_slice_whole, Rect.mem_set_unit]
  exact Iff.rfl

/-- The val array after the region: every slab is some point's block, so the array is `valArr`. -/
theorem final_val (c : Dev nD) : (dat0 V c).arrAt 6 cfg0.N = valArr V c :=
  (dat0 V c).arrAt_eq_of_cover 6 (valArr V c) (fun t _ => flushed_val V c t) fun i => by
    have h0 : (i 0).val < 16 := (i 0).isLt
    have h1 : (i 1).val < 1024 := (i 1).isLt
    have h2 : (i 2).val < 512 := (i 2).isLt
    let tt : Fin cfg0.N := ⟨(i 0).val, lt_of_lt_of_eq h0 (show cfg0.N = 16 from N_0).symm⟩
    refine ⟨tt, flush0_6 _, ?_⟩
    rw [mem_blk_val]
    have h := (idx_all tt).2.2.2.2.2.2
    have q0 : win0_6.index tt 0 = (i 0).val := congrFun h 0
    have q1 : win0_6.index tt 1 = 0 := congrFun h 1
    have q2 : win0_6.index tt 2 = 0 := congrFun h 2
    intro a
    match a with
    | ⟨0, _⟩ => show win0_6.index tt 0 * 1 ≤ (i 0).val ∧ (i 0).val < win0_6.index tt 0 * 1 + 1; omega
    | ⟨1, _⟩ => show win0_6.index tt 1 * 1024 ≤ (i 1).val ∧ (i 1).val < win0_6.index tt 1 * 1024 + 1024; omega
    | ⟨2, _⟩ => show win0_6.index tt 2 * 512 ≤ (i 2).val ∧ (i 2).val < win0_6.index tt 2 * 512 + 512; omega

end Cert.MemAttn.R0

end
-- ==== Proof.Boundaries.lean ====
/-
  The buffer contents at the two regions' entries, read back to the launch memory.

  Before the first region the host spreads each bias array [16,512] to [16,1,512]; nothing else is written, so the
  first region finds the memory rows and the weights as launched. Between the regions the host re-lays the last
  layer's weights (a reshape [512,8192] → [512,16,512], then the axes permuted to [16,512,512]) and changes the float
  format of those weights and of the queries — at the ideal values a change of format is the identity —; the second
  region finds the key and value arrays as the first region's write-backs left them, and the last bias as launched.
-/
import proofs.«181606_j26877905338696_2_alg».proof.Proof.Gen.KernelIdeal.Frame
import Idealize.ShloMosaic.Lib.StableHlo.Run
import Idealize.ShloMosaic.Lib.Tactic

noncomputable section

namespace Cert.MemAttn.Bd

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The first region finds the key bias spread to [16,1,512]. -/
theorem V1_v0 (c : Dev nD) : V1 m ρ c main_v0
    = broadcastInDim S16x1x512 ![0, 2] bcast_S16x512_S16x1x512_0_2 (m ((c : Thread nD τ).loc main_arg3)) := by
  show StableHlo.after hostOps0 (W0 m ρ c) (Proc.devRef .tc main_v0) = _
  after_results

/-- The first region finds the value bias spread to [16,1,512]. -/
theorem V1_v1 (c : Dev nD) : V1 m ρ c main_v1
    = broadcastInDim S16x1x512 ![0, 2] bcast_S16x512_S16x1x512_0_2 (m ((c : Thread nD τ).loc main_arg5)) := by
  show StableHlo.after hostOps0 (W0 m ρ c) (Proc.devRef .tc main_v1) = _
  after_results

/-- The first region finds the memory rows as launched. -/
theorem V1_arg1 (c : Dev nD) : V1 m ρ c main_arg1 = m ((c : Thread nD τ).loc main_arg1) := by
  show StableHlo.after hostOps0 (W0 m ρ c) (Proc.devRef .tc main_arg1) = _
  after_results

/-- The first region finds the key weights as launched. -/
theorem V1_arg2 (c : Dev nD) : V1 m ρ c main_arg2 = m ((c : Thread nD τ).loc main_arg2) := by
  show StableHlo.after hostOps0 (W0 m ρ c) (Proc.devRef .tc main_arg2) = _
  after_results

/-- The first region finds the value weights as launched. -/
theorem V1_arg4 (c : Dev nD) : V1 m ρ c main_arg4 = m ((c : Thread nD τ).loc main_arg4) := by
  show StableHlo.after hostOps0 (W0 m ρ c) (Proc.devRef .tc main_arg4) = _
  after_results

/-- At the first region's exit the queries are as launched: neither the first host stretch nor the region writes them. -/
theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)

/-- At the first region's exit the last layer's weights are as launched. -/
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

/-- At the first region's exit the last layer's bias is as launched. -/
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-- The second region finds the queries in the narrower float format. -/
theorem V3_v6 (c : Dev nD) : V3 m ρ c main_v6 = truncf .bf16 (m ((c : Thread nD τ).loc main_arg0)) bitsLt_bf16_f32 := by
  show StableHlo.after hostOps1 (W2 m ρ c) (Proc.devRef .tc main_v6) = _
  after_results
  rw [W2_arg0]

/-- The second region finds the last layer's weights re-laid, one [512,512] slab per head, in the narrower format. -/
theorem V3_v5 (c : Dev nD) : V3 m ρ c main_v5
    = truncf .bf16 (transpose S16x512x512 [1, 2, 0]
        (shapeCast S512x16x512 (m ((c : Thread nD τ).loc main_arg6)) shapeCasts_S512x8192_S512x16x512)
        transposes_S512x16x512_S16x512x512_1_2_0) bitsLt_bf16_f32 := by
  show StableHlo.after hostOps1 (W2 m ρ c) (Proc.devRef .tc main_v5) = _
  after_results
  rw [W2_arg6]
  rfl

/-- The second region finds the last layer's bias as launched. -/
theorem V3_arg7 (c : Dev nD) : V3 m ρ c main_arg7 = m ((c : Thread nD τ).loc main_arg7) := by
  show StableHlo.after hostOps1 (W2 m ρ c) (Proc.devRef .tc main_arg7) = _
  after_results
  rw [W2_arg7]

/-- The second region finds the key array as the first region's write-backs left it. -/
theorem V3_key (c : Dev nD) : V3 m ρ c main_v2_0 = (dat0 (V1 m ρ) c).arrAt 5 cfg0.N := by
  show StableHlo.after hostOps1 (W2 m ρ c) (Proc.devRef .tc main_v2_0) = _
  after_results
  exact W2_arr m ρ c 5

/-- The second region finds the value array as the first region's write-backs left it. -/
theorem V3_val (c : Dev nD) : V3 m ρ c main_v2_1 = (dat0 (V1 m ρ) c).arrAt 6 cfg0.N := by
  show StableHlo.after hostOps1 (W2 m ρ c) (Proc.devRef .tc main_v2_1) = _
  after_results
  exact W2_arr m ρ c 6

end Cert.MemAttn.Bd

end
-- ==== Proof.Layouts.lean ====
/-
  Two layout operations the host applies to the argument arrays before the kernels run, read at an entry given by
  coordinates.

  Each head's bias row [16, 512] is given a unit middle axis, [16, 1, 512]: entry (h, u, o) is the bias at (h, o).
  The last layer's weights [512, 8192], whose 8192 columns are the 16 heads' 512 columns side by side, are split
  into [512, 16, 512] (row-major position kept: column h·512 + o becomes (h, o)) and the axes are then permuted so
  that the head comes first: entry (h, o, o') of the result is the weight at row o', column h·512 + o.
-/
import proofs.«181606_j26877905338696_2_alg».proof.KernelIdeal
import Idealize.ShloMosaic.Lib.ValueIdx
import Idealize.ShloMosaic.Lib.ValueLayout
import Idealize.ShloMosaic.Lib.Pipeline.Value
import proofs.«181606_j26877905338696_2_alg».proof.Proof.Spec

noncomputable section

namespace Cert.MemAttn.Pay

open Cert.KernelIdeal Cert.KernelIdeal.Facts₀ Idealize.ShloMosaic Idealize.ShloMosaic.ValueIdx

variable {F : FTy → Type} [Facts₀]

/-- The bias rows with a unit middle axis put in: entry (h, u, o) is the bias at (h, o). -/
theorem spread_bias (x : Vec F S16x512 .f32) (h : Fin 16) (u : Fin 1) (o : Fin 512) :
    broadcastInDim S16x1x512 ![0, 2] bcast_S16x512_S16x1x512_0_2 x (ix3 h u o) = x (ix2 h o) :=
  broadcastInDim_apply ![0, 2] bcast_S16x512_S16x1x512_0_2 x (ix3 h u o) (ix2 h o) fun a =>
    match a with
    | ⟨0, _⟩ => rfl
    | ⟨1, _⟩ => rfl

/-- The last layer's weights split by head and the head axis brought first: entry (h, o, o') is the weight at row o',
    column h·512 + o. -/
theorem relaid_weights (x : Vec F S512x8192 .f32) (h : Fin 16) (o o' : Fin 512) :
    transpose S16x512x512 [1, 2, 0] (shapeCast S512x16x512 x shapeCasts_S512x8192_S512x16x512)
        transposes_S512x16x512_S16x512x512_1_2_0 (ix3 h o o') = x (ix2 o' (Cert.MemAttn.col h o)) := by
  -- the permutation [1, 2, 0] reads result entry (h, o, o') at operand entry (o', h, o)
  refine (transpose_apply _ _ transposes_S512x16x512_S16x512x512_1_2_0 (ix3 h o o') (ix3 o' h o) fun b =>
    match b with
    | ⟨0, _⟩ => rfl
    | ⟨1, _⟩ => rfl
    | ⟨2, _⟩ => rfl).trans ?_
  -- the split keeps the row-major position: (o', h, o) sits where (o', h·512 + o) did
  refine shapeCast_apply x shapeCasts_S512x8192_S512x16x512 (ix3 o' h o) (ix2 o' (Cert.MemAttn.col h o)) ?_
  rw [Shape.rowMajor_val_three, Shape.rowMajor_val_two]
  show o'.val * 8192 + (h.val * 512 + o.val) = (o'.val * 16 + h.val) * 512 + o.val
  omega

end Cert.MemAttn.Pay

end
-- ==== Proof.Entry1.lean ====
/-
  What the second kernel region finds in its arrays, entry by entry, in terms of the launch arrays.

  The key and value arrays are what the first region wrote: slab h of each is that region's arithmetic on head h's
  memory rows, weights and bias, which is the specification's key (the softmax of the key layer's row) and value
  layer. The queries and the last layer's weights arrive in a narrower float format, which at the ideal values is
  the identity; the weights are moreover re-laid with the head axis first, so entry (h, o, o') is the weight at row o',
  column h·512 + o. The last bias arrives as launched.
-/
import proofs.«181606_j26877905338696_2_alg».proof.Proof.Region0
import proofs.«181606_j26877905338696_2_alg».proof.Proof.Boundaries
import proofs.«181606_j26877905338696_2_alg».proof.Proof.Payloads0
import proofs.«181606_j26877905338696_2_alg».proof.Proof.Layouts
import proofs.«181606_j26877905338696_2_alg».proof.Proof.Spec
import Idealize.ShloMosaic.Lib.ValueIdx

noncomputable section

namespace Cert.MemAttn.Entry

open Idealize.ShloMosaic Idealize.ShloMosaic.TcCoe Idealize.SL.Sem Idealize.ShloMosaic.ValueIdx
open Cert.KernelIdeal Cert.KernelIdeal.Gen
open Cert.Lib.SoftmaxRow
open scoped BigOperators

variable (m : (ℓ : Loc nD τ sig) → Buf (Elt Ideal) ℓ) (ρ : Dev nD → PrngReg) (c : Dev nD)

/-- One dense layer as the first region computes it on head h's slabs, at memory row i and output o: the
    specification's dense layer on the launch arrays. -/
theorem dense_of_slabs (A : Vec Ideal S16x1024x512 .f32) (W : Vec Ideal S16x512x512 .f32) (b : Vec Ideal S16x512 .f32)
    (h : Fin 16) (i : Fin 1024) (o : Fin 512) :
    (∑ d : Fin 512, R0.slab (a := 1024) (b := 512) (e := .f32) A h (ix3 (0 : Fin 1) i d)
        * R0.slab (a := 512) (b := 512) (e := .f32) W h (ix3 (0 : Fin 1) o d))
      + R0.slab (a := 1) (b := 512) (e := .f32)
          (broadcastInDim S16x1x512 ![0, 2] bcast_S16x512_S16x1x512_0_2 b) h (ix3 (0 : Fin 1) (0 : Fin 1) o)
      = Cert.MemAttn.dense A W b h i o := by
  rw [R0.slab_apply, Pay.spread_bias]
  rfl

/-- The key array the second region finds: the specification's keys of the launch arrays. -/
theorem found_key (h : Fin 16) (i : Fin 1024) (o : Fin 512) :
    V3 m ρ c main_v2_0 (ix3 h i o)
      = Cert.MemAttn.memKey (m ((c : Thread nD τ).loc main_arg1)) (m ((c : Thread nD τ).loc main_arg2))
          (m ((c : Thread nD τ).loc main_arg3)) h i o := by
  rw [Bd.V3_key, R0.final_key]
  show k0_pay3 (F := Ideal) (R0.slab (a := 1024) (b := 512) (e := .f32) (V1 m ρ c main_arg1) h)
      (R0.slab (a := 512) (b := 512) (e := .f32) (V1 m ρ c main_arg2) h)
      (R0.slab (a := 1) (b := 512) (e := .f32) (V1 m ρ c main_v0) h) (ix3 (0 : Fin 1) i o) = _
  rw [Pay.keyBlock_apply, Bd.V1_arg1, Bd.V1_arg2, Bd.V1_v0]
  exact congrArg (fun L => softmaxRow L o) (funext fun o' => dense_of_slabs _ _ _ h i o')

/-- The value array the second region finds: the specification's value layer of the launch arrays. -/
theorem found_val (h : Fin 16) (i : Fin 1024) (o : Fin 512) :
    V3 m ρ c main_v2_1 (ix3 h i o)
      = Cert.MemAttn.dense (m ((c : Thread nD τ).loc main_arg1)) (m ((c : Thread nD τ).loc main_arg4))
          (m ((c : Thread nD τ).loc main_arg5)) h i o := by
  rw [Bd.V3_val, R0.final_val]
  show k0_pay1 (F := Ideal) (k0_pay4 (R0.slab (a := 1024) (b := 512) (e := .f32) (V1 m ρ c main_arg1) h)
      (R0.slab (a := 512) (b := 512) (e := .f32) (V1 m ρ c main_arg4) h)
      (R0.slab (a := 1) (b := 512) (e := .f32) (V1 m ρ c main_v1) h)) (ix3 (0 : Fin 1) i o) = _
  rw [Pay.valBlock_apply, Bd.V1_arg1, Bd.V1_arg4, Bd.V1_v1]
  exact dense_of_slabs _ _ _ h i o

/-- The queries the second region finds: the launch queries. -/
theorem found_query (n : Fin 16384) (o : Fin 512) :
    V3 m ρ c main_v6 (ix2 n o) = m ((c : Thread nD τ).loc main_arg0) (ix2 n o) := by
  rw [Bd.V3_v6]
  rfl

/-- The last layer's weights the second region finds: entry (h, o, o') is the launch weight at row o', column
    h·512 + o. -/
theorem found_wf (h : Fin 16) (o o' : Fin 512) :
    V3 m ρ c main_v5 (ix3 h o o') = m ((c : Thread nD τ).loc main_arg6) (ix2 o' (Cert.MemAttn.col h o)) := by
  rw [Bd.V3_v5]
  exact Pay.relaid_weights (m ((c : Thread nD τ).loc main_arg6)) h o o'

/-- The last bias the second region finds: the launch bias. -/
theorem found_bf (o' : Fin 512) :
    V3 m ρ c main_arg7 (ix1 o') = m ((c : Thread nD τ).loc main_arg7) (ix1 o') := by
  rw [Bd.V3_arg7]

end Cert.MemAttn.Entry

end
-- ==== Proof.Final.lean ====
/-
  The kernel's result buffer holds the specification's function of the launch arrays.

  The last segment boundary's contents at the result buffer are what the second region's write-backs leave: at (n, o')
  the sum over the heads of the head's term of the arrays that region finds, plus the bias it finds. Those arrays are,
  entry by entry, the queries as launched, the key array memKey and the value array of the first region, the last
  layer's weights read at column h·512 + o, and the bias as launched; with them the head's term is the
  specification's share `proj` of head h, and the whole is `result`.
-/
import proofs.«181606_j26877905338696_2_alg».proof.Proof.Region1Value
import proofs.«181606_j26877905338696_2_alg».proof.Proof.Entry1

noncomputable section

namespace Cert.MemAttn.Final

open Idealize.ShloMosaic Idealize.ShloMosaic.TcCoe Idealize.SL.Sem Idealize.ShloMosaic.ValueIdx
open Idealize.ShloMosaic.Pipeline (Dat)
open Cert.KernelIdeal Cert.KernelIdeal.Gen Cert.MemAttn
open scoped BigOperators

variable (m : (ℓ : Loc nD τ sig) → Buf (Elt Ideal) ℓ) (ρ : Dev nD → PrngReg)

/-- With the arrays the second region finds, head h's term is the specification's share of head h. -/
theorem headTerm_eq_proj (c : Dev nD) (h : Fin 16) (n : Fin 16384) (o' : Fin 512) :
    R1V.headTerm (V3 m ρ) c h n o'
      = proj (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) h n o' := by
  unfold R1V.headTerm R1V.headTermOf proj headOut attn score
  simp only [Entry.found_key m ρ c, Entry.found_val m ρ c, Entry.found_query m ρ c, Entry.found_wf m ρ c]

/-- The result array of the second region, from what it finds, is the specification's function of the launch arrays. -/
theorem resultArr_eq (c : Dev nD) : R1V.resultArr (V3 m ρ) c
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  funext i
  unfold R1V.resultArr result
  exact congrArg₂ (· + ·) (Finset.sum_congr rfl fun h _ => headTerm_eq_proj m ρ c h (i 0) (i 1))
    (Entry.found_bf m ρ c (i 1))

/-- The last boundary's contents at the result buffer are what the second region's write-backs leave there. -/
theorem W4_result (c : Dev nD) : W4 m ρ c (Proc.devRef .tc main_v7) = (dat1 (V3 m ρ) c).arrAt 5 cfg1.N :=
  W4_arr m ρ c 5

/-- The last boundary's contents at the result buffer: the specification's function of the launch arrays. -/
theorem kernel_result (c : Dev nD) : W4 m ρ c (Proc.devRef .tc main_v7)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W4_result m ρ c).trans ((R1V.final_out (V3 m ρ) c).trans (resultArr_eq m ρ c))

end Cert.MemAttn.Final

end
-- ==== Proof.RefStagesA.lean ====
/-
  The reference program's first stages, read entry by entry: each head's dense layers on the memory rows, and the
  keys, the softmax of the key layer's row along the output axis.
-/
import proofs.«181606_j26877905338696_2_alg».proof.Proof.Gen.ReferenceIdeal.Read
import proofs.«181606_j26877905338696_2_alg».proof.Proof.Spec

noncomputable section

namespace Cert.MemAttn.Ref

open Idealize.ShloMosaic Idealize.ShloMosaic.ValueIdx
open Cert.ReferenceIdeal Cert.ReferenceIdeal.Gen Cert.ReferenceIdeal.Read
open Cert.Lib.SoftmaxRow
open scoped BigOperators

/-- A maximum-reduce over the last axis of an [a, b, c] array, started from −∞, read at (p, q): the largest entry of
    the row (p, q, ·). -/
theorem hostReduceMax_row {a b c : ℕ} (x : (⟨3, ![a, b, c]⟩ : Shape).Idx → Ideal .f32)
    (init : (⟨0, ![]⟩ : Shape).Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (hi : init (Shape.Idx.first hu) = ⊥) (p : Fin a) (q : Fin b) :
    Host.reduce FloatOps.maximumf x init h' hu (ix2 p q) = rowMax fun k : Fin c => x (ix3 p q k) := by
  rw [Host.reduce_eq_fold_single FloatOps.maximumf x init h' h hu, hi]
  have hf : (x ∘ h.lift (ix2 p q)) = fun k : Fin c => x (ix3 p q k) := funext fun k => congrArg x (funext fun ax =>
    Fin.ext (by match ax with | ⟨0, _⟩ => rfl | ⟨1, _⟩ => rfl | ⟨2, _⟩ => rfl))
  exact congrArg (fun f => Finset.fold max (⊥ : EReal) f (Finset.univ : Finset (Fin c))) hf

/-- The key layer before the softmax, at head h, memory row m, output o. -/
theorem keyLogits_apply (x1 : (⟨S16x1024x512, .f32⟩ : BufTy).Contents (Elt Ideal)) (x2 : (⟨S16x512x512, .f32⟩ : BufTy).Contents (Elt Ideal))
    (x3 : (⟨S16x512, .f32⟩ : BufTy).Contents (Elt Ideal)) (h : Fin 16) (m : Fin 1024) (o : Fin 512) :
    val_main_v3 (F := Ideal) x1 x2 x3 (ix3 h m o) = dense x1 x2 x3 h m o := by
  have el : ∀ k : Fin 512, lidx_main_v0 (ix3 h m o) k = ix3 h m k := fun k =>
    funext fun a => Fin.ext (by match a with | ⟨0, _⟩ => rfl | ⟨1, _⟩ => rfl | ⟨2, _⟩ => rfl)
  have er : ∀ k : Fin 512, ridx_main_v0 (ix3 h m o) k = ix3 h o k := fun k =>
    funext fun a => Fin.ext (by match a with | ⟨0, _⟩ => rfl | ⟨1, _⟩ => rfl | ⟨2, _⟩ => rfl)
  have eb : idx_main_v1 (idx_main_v2 (ix3 h m o)) = ix2 h o :=
    funext fun a => Fin.ext (by match a with | ⟨0, _⟩ => rfl | ⟨1, _⟩ => rfl)
  rw [val_main_v3_apply, val_main_v0_apply, val_main_v2_apply, val_main_v1_apply]
  simp only [el, er, eb, Ideal.addf_def]
  rfl

/-- The value layer, at head h, memory row m, output o. -/
theorem memVal_apply (x1 : (⟨S16x1024x512, .f32⟩ : BufTy).Contents (Elt Ideal)) (x4 : (⟨S16x512x512, .f32⟩ : BufTy).Contents (Elt Ideal))
    (x5 : (⟨S16x512, .f32⟩ : BufTy).Contents (Elt Ideal)) (h : Fin 16) (m : Fin 1024) (o : Fin 512) :
    val_main_v18 (F := Ideal) x1 x4 x5 (ix3 h m o) = dense x1 x4 x5 h m o := by
  have el : ∀ k : Fin 512, lidx_main_v15 (ix3 h m o) k = ix3 h m k := fun k =>
    funext fun a => Fin.ext (by match a with | ⟨0, _⟩ => rfl | ⟨1, _⟩ => rfl | ⟨2, _⟩ => rfl)
  have er : ∀ k : Fin 512, ridx_main_v15 (ix3 h m o) k = ix3 h o k := fun k =>
    funext fun a => Fin.ext (by match a with | ⟨0, _⟩ => rfl | ⟨1, _⟩ => rfl | ⟨2, _⟩ => rfl)
  have eb : idx_main_v16 (idx_main_v17 (ix3 h m o)) = ix2 h o :=
    funext fun a => Fin.ext (by match a with | ⟨0, _⟩ => rfl | ⟨1, _⟩ => rfl)
  rw [val_main_v18_apply, val_main_v15_apply, val_main_v17_apply, val_main_v16_apply]
  simp only [el, er, eb, Ideal.addf_def]
  rfl

/-- The largest entry of the key layer's row (h, m, ·), as the reference computes it. -/
theorem keyRowMax_apply (x1 : (⟨S16x1024x512, .f32⟩ : BufTy).Contents (Elt Ideal)) (x2 : (⟨S16x512x512, .f32⟩ : BufTy).Contents (Elt Ideal))
    (x3 : (⟨S16x512, .f32⟩ : BufTy).Contents (Elt Ideal)) (h : Fin 16) (m : Fin 1024) :
    val_main_v6 (F := Ideal) x1 x2 x3 (ix2 h m) = rowMax fun o => dense x1 x2 x3 h m o := by
  rw [val_main_v6_apply, val_main_v5_apply, val_main_cst_0_apply]
  unfold val_main_v4
  rw [hostReduceMax_row (val_main_v3 (F := Ideal) x1 x2 x3) (val_main_cst (F := Ideal)) reducesTo_S16x1024x512_S16x1024_d2
    (by decide) h_S_ ofBits_neg_inf h m]
  simp only [keyLogits_apply, Ideal.maximumf_def, Ideal.ofBits_def, ofBits_neg_inf]
  exact max_bot_rowMax _

/-- The exponential under the keys' softmax, at (h, m, o). -/
theorem keyExp_apply (x1 : (⟨S16x1024x512, .f32⟩ : BufTy).Contents (Elt Ideal)) (x2 : (⟨S16x512x512, .f32⟩ : BufTy).Contents (Elt Ideal))
    (x3 : (⟨S16x512, .f32⟩ : BufTy).Contents (Elt Ideal)) (h : Fin 16) (m : Fin 1024) (o : Fin 512) :
    val_main_v10 (F := Ideal) x1 x2 x3 (ix3 h m o)
      = Ideal.exp (dense x1 x2 x3 h m o - rowMax fun o' => dense x1 x2 x3 h m o') := by
  have e : idx_main_v7 (idx_main_v8 (ix3 h m o)) = ix2 h m :=
    funext fun a => Fin.ext (by match a with | ⟨0, _⟩ => rfl | ⟨1, _⟩ => rfl)
  rw [val_main_v10_apply, val_main_v9_apply, val_main_v8_apply, val_main_v7_apply, e, keyLogits_apply, keyRowMax_apply]
  simp only [Ideal.hostUnary_exp_def, Ideal.subf_def]

/-- The keys: the reference's softmax of the key layer along the output axis, at (h, m, o). -/
theorem memKey_apply (x1 : (⟨S16x1024x512, .f32⟩ : BufTy).Contents (Elt Ideal)) (x2 : (⟨S16x512x512, .f32⟩ : BufTy).Contents (Elt Ideal))
    (x3 : (⟨S16x512, .f32⟩ : BufTy).Contents (Elt Ideal)) (h : Fin 16) (m : Fin 1024) (o : Fin 512) :
    val_main_v14 (F := Ideal) x1 x2 x3 (ix3 h m o) = memKey x1 x2 x3 h m o := by
  have e : idx_main_v12 (idx_main_v13 (ix3 h m o)) = ix2 h m :=
    funext fun a => Fin.ext (by match a with | ⟨0, _⟩ => rfl | ⟨1, _⟩ => rfl)
  have ek : ∀ k : Fin 512, idx_main_v11 (ix2 h m) k = ix3 h m k := fun k =>
    funext fun a => Fin.ext (by match a with | ⟨0, _⟩ => rfl | ⟨1, _⟩ => rfl | ⟨2, _⟩ => rfl)
  rw [val_main_v14_apply, val_main_v13_apply, val_main_v12_apply, e, val_main_v11_apply, val_main_cst_1_apply]
  simp only [ek, keyExp_apply, Ideal.hostDivf_def, Ideal.ofBits_def, Ideal.ofBits_zero_f32, zero_add]
  rfl

end Cert.MemAttn.Ref

end
-- ==== Proof.RefStagesB.lean ====
/-
  The reference program's middle stages, read entry by entry: the scores of the query rows against each head's keys,
  the attention weights (their softmax along the memory axis), and each head's output.
-/
import proofs.«181606_j26877905338696_2_alg».proof.Proof.RefStagesA

noncomputable section

namespace Cert.MemAttn.Ref

open Idealize.ShloMosaic Idealize.ShloMosaic.ValueIdx
open Cert.ReferenceIdeal Cert.ReferenceIdeal.Gen Cert.ReferenceIdeal.Read
open Cert.Lib.SoftmaxRow
open scoped BigOperators

/-- The score of query row n against memory row m of head h. The reference contracts the keys (on the left) with the
    query rows (on the right) and then swaps the last two axes. -/
theorem score_apply (x0 : (⟨S16384x512, .f32⟩ : BufTy).Contents (Elt Ideal)) (x1 : (⟨S16x1024x512, .f32⟩ : BufTy).Contents (Elt Ideal))
    (x2 : (⟨S16x512x512, .f32⟩ : BufTy).Contents (Elt Ideal)) (x3 : (⟨S16x512, .f32⟩ : BufTy).Contents (Elt Ideal))
    (h : Fin 16) (n : Fin 16384) (m : Fin 1024) :
    val_main_v20 (F := Ideal) x0 x1 x2 x3 (ix3 h n m) = score x0 x1 x2 x3 h n m := by
  have et : idx_main_v20 (ix3 h n m) = ix3 h m n :=
    funext fun a => Fin.ext (by match a with | ⟨0, _⟩ => rfl | ⟨1, _⟩ => rfl | ⟨2, _⟩ => rfl)
  have el : ∀ k : Fin 512, lidx_main_v19 (ix3 h m n) k = ix3 h m k := fun k =>
    funext fun a => Fin.ext (by match a with | ⟨0, _⟩ => rfl | ⟨1, _⟩ => rfl | ⟨2, _⟩ => rfl)
  have er : ∀ k : Fin 512, ridx_main_v19 (ix3 h m n) k = ix2 n k := fun k =>
    funext fun a => Fin.ext (by match a with | ⟨0, _⟩ => rfl | ⟨1, _⟩ => rfl)
  rw [val_main_v20_apply, et, val_main_v19_apply]
  simp only [el, er, memKey_apply]
  exact Finset.sum_congr rfl fun k _ => mul_comm _ _

/-- The largest score of query row n in head h, as the reference computes it. -/
theorem scoreRowMax_apply (x0 : (⟨S16384x512, .f32⟩ : BufTy).Contents (Elt Ideal)) (x1 : (⟨S16x1024x512, .f32⟩ : BufTy).Contents (Elt Ideal))
    (x2 : (⟨S16x512x512, .f32⟩ : BufTy).Contents (Elt Ideal)) (x3 : (⟨S16x512, .f32⟩ : BufTy).Contents (Elt Ideal))
    (h : Fin 16) (n : Fin 16384) :
    val_main_v23 (F := Ideal) x0 x1 x2 x3 (ix2 h n) = rowMax fun m => score x0 x1 x2 x3 h n m := by
  rw [val_main_v23_apply, val_main_v22_apply, val_main_cst_3_apply]
  unfold val_main_v21
  rw [hostReduceMax_row (val_main_v20 (F := Ideal) x0 x1 x2 x3) (val_main_cst_2 (F := Ideal)) reducesTo_S16x16384x1024_S16x16384_d2
    (by decide) h_S_ ofBits_neg_inf h n]
  simp only [score_apply, Ideal.maximumf_def, Ideal.ofBits_def, ofBits_neg_inf]
  exact max_bot_rowMax _

/-- The exponential under the attention softmax, at (h, n, m). -/
theorem scoreExp_apply (x0 : (⟨S16384x512, .f32⟩ : BufTy).Contents (Elt Ideal)) (x1 : (⟨S16x1024x512, .f32⟩ : BufTy).Contents (Elt Ideal))
    (x2 : (⟨S16x512x512, .f32⟩ : BufTy).Contents (Elt Ideal)) (x3 : (⟨S16x512, .f32⟩ : BufTy).Contents (Elt Ideal))
    (h : Fin 16) (n : Fin 16384) (m : Fin 1024) :
    val_main_v27 (F := Ideal) x0 x1 x2 x3 (ix3 h n m)
      = Ideal.exp (score x0 x1 x2 x3 h n m - rowMax fun m' => score x0 x1 x2 x3 h n m') := by
  have e : idx_main_v24 (idx_main_v25 (ix3 h n m)) = ix2 h n :=
    funext fun a => Fin.ext (by match a with | ⟨0, _⟩ => rfl | ⟨1, _⟩ => rfl)
  rw [val_main_v27_apply, val_main_v26_apply, val_main_v25_apply, val_main_v24_apply, e, score_apply, scoreRowMax_apply]
  simp only [Ideal.hostUnary_exp_def, Ideal.subf_def]

/-- The attention weights: the reference's softmax of the scores along the memory axis, at (h, n, m). -/
theorem attn_apply (x0 : (⟨S16384x512, .f32⟩ : BufTy).Contents (Elt Ideal)) (x1 : (⟨S16x1024x512, .f32⟩ : BufTy).Contents (Elt Ideal))
    (x2 : (⟨S16x512x512, .f32⟩ : BufTy).Contents (Elt Ideal)) (x3 : (⟨S16x512, .f32⟩ : BufTy).Contents (Elt Ideal))
    (h : Fin 16) (n : Fin 16384) (m : Fin 1024) :
    val_main_v31 (F := Ideal) x0 x1 x2 x3 (ix3 h n m) = attn x0 x1 x2 x3 h n m := by
  have e : idx_main_v29 (idx_main_v30 (ix3 h n m)) = ix2 h n :=
    funext fun a => Fin.ext (by match a with | ⟨0, _⟩ => rfl | ⟨1, _⟩ => rfl)
  have ek : ∀ k : Fin 1024, idx_main_v28 (ix2 h n) k = ix3 h n k := fun k =>
    funext fun a => Fin.ext (by match a with | ⟨0, _⟩ => rfl | ⟨1, _⟩ => rfl | ⟨2, _⟩ => rfl)
  rw [val_main_v31_apply, val_main_v30_apply, val_main_v29_apply, e, val_main_v28_apply, val_main_cst_4_apply]
  simp only [ek, scoreExp_apply, Ideal.hostDivf_def, Ideal.ofBits_def, Ideal.ofBits_zero_f32, zero_add]
  rfl

/-- Head h's output for query row n, at output o: the attention weights contracted with the value rows. -/
theorem headOut_apply (x0 : (⟨S16384x512, .f32⟩ : BufTy).Contents (Elt Ideal)) (x1 : (⟨S16x1024x512, .f32⟩ : BufTy).Contents (Elt Ideal))
    (x2 : (⟨S16x512x512, .f32⟩ : BufTy).Contents (Elt Ideal)) (x3 : (⟨S16x512, .f32⟩ : BufTy).Contents (Elt Ideal))
    (x4 : (⟨S16x512x512, .f32⟩ : BufTy).Contents (Elt Ideal)) (x5 : (⟨S16x512, .f32⟩ : BufTy).Contents (Elt Ideal))
    (h : Fin 16) (n : Fin 16384) (o : Fin 512) :
    val_main_v32 (F := Ideal) x0 x1 x2 x3 x4 x5 (ix3 h n o) = headOut x0 x1 x2 x3 x4 x5 h n o := by
  have el : ∀ k : Fin 1024, lidx_main_v32 (ix3 h n o) k = ix3 h n k := fun k =>
    funext fun a => Fin.ext (by match a with | ⟨0, _⟩ => rfl | ⟨1, _⟩ => rfl | ⟨2, _⟩ => rfl)
  have er : ∀ k : Fin 1024, ridx_main_v32 (ix3 h n o) k = ix3 h k o := fun k =>
    funext fun a => Fin.ext (by match a with | ⟨0, _⟩ => rfl | ⟨1, _⟩ => rfl | ⟨2, _⟩ => rfl)
  rw [val_main_v32_apply]
  simp only [el, er, attn_apply, memVal_apply]
  rfl

end Cert.MemAttn.Ref

end
-- ==== Proof.RefSpec.lean ====
/-
  The reference program's last stages and the whole: the heads' outputs laid side by side, the last dense layer as the
  sum over the heads of each head's share, and the bias. Together with the earlier stages this says that the reference
  computes the multi-head memory attention of the specification, entry by entry.
-/
import proofs.«181606_j26877905338696_2_alg».proof.Proof.RefStagesB

noncomputable section

namespace Cert.MemAttn.Ref

open Idealize.ShloMosaic Idealize.ShloMosaic.ValueIdx
open Cert.ReferenceIdeal Cert.ReferenceIdeal.Gen Cert.ReferenceIdeal.Read
open Cert.Lib.SoftmaxRow
open scoped BigOperators

/-- The heads' outputs laid side by side: in query row n, column h·512 + o holds output o of head h. The reference
    moves the head axis behind the row axis and then merges it with the output axis; position h·512 + o of the merged
    axis splits back into (h, o) by quotient and remainder. -/
theorem concat_apply (x0 : (⟨S16384x512, .f32⟩ : BufTy).Contents (Elt Ideal)) (x1 : (⟨S16x1024x512, .f32⟩ : BufTy).Contents (Elt Ideal))
    (x2 : (⟨S16x512x512, .f32⟩ : BufTy).Contents (Elt Ideal)) (x3 : (⟨S16x512, .f32⟩ : BufTy).Contents (Elt Ideal))
    (x4 : (⟨S16x512x512, .f32⟩ : BufTy).Contents (Elt Ideal)) (x5 : (⟨S16x512, .f32⟩ : BufTy).Contents (Elt Ideal))
    (h : Fin 16) (n : Fin 16384) (o : Fin 512) :
    val_main_v34 (F := Ideal) x0 x1 x2 x3 x4 x5 (ix2 n (col h o)) = headOut x0 x1 x2 x3 x4 x5 h n o := by
  have e : idx_main_v33 (idx_main_v34 (ix2 n (col h o))) = ix3 h n o :=
    funext fun a => Fin.ext (by
      have hh : h.val < 16 := h.isLt
      have hn : n.val < 16384 := n.isLt
      have ho : o.val < 512 := o.isLt
      match a with
      | ⟨0, _⟩ => show (n.val * 8192 + (h.val * 512 + o.val)) / 512 % 16 = h.val; omega
      | ⟨1, _⟩ => show (n.val * 8192 + (h.val * 512 + o.val)) / 8192 = n.val; omega
      | ⟨2, _⟩ => show (n.val * 8192 + (h.val * 512 + o.val)) % 512 = o.val; omega)
  rw [val_main_v34_apply, val_main_v33_apply, e, headOut_apply]

/-- The last dense layer before the bias, at query row n and output o': the contraction over the 8192 concatenated
    columns, cut into the heads' blocks of 512, is the sum of the heads' shares. -/
theorem lastDense_apply (x0 : (⟨S16384x512, .f32⟩ : BufTy).Contents (Elt Ideal)) (x1 : (⟨S16x1024x512, .f32⟩ : BufTy).Contents (Elt Ideal))
    (x2 : (⟨S16x512x512, .f32⟩ : BufTy).Contents (Elt Ideal)) (x3 : (⟨S16x512, .f32⟩ : BufTy).Contents (Elt Ideal))
    (x4 : (⟨S16x512x512, .f32⟩ : BufTy).Contents (Elt Ideal)) (x5 : (⟨S16x512, .f32⟩ : BufTy).Contents (Elt Ideal))
    (x6 : (⟨S512x8192, .f32⟩ : BufTy).Contents (Elt Ideal)) (n : Fin 16384) (o' : Fin 512) :
    val_main_v36 (F := Ideal) x0 x1 x2 x3 x4 x5 x6 (ix2 n o') = ∑ h : Fin 16, proj x0 x1 x2 x3 x4 x5 x6 h n o' := by
  have el : ∀ j : Fin 8192, lidx_main_v36 (ix2 n o') j = ix2 n j := fun j =>
    funext fun a => Fin.ext (by match a with | ⟨0, _⟩ => rfl | ⟨1, _⟩ => rfl)
  have er : ∀ j : Fin 8192, idx_main_v35 (ridx_main_v36 (ix2 n o') j) = ix2 o' j := fun j =>
    funext fun a => Fin.ext (by match a with | ⟨0, _⟩ => rfl | ⟨1, _⟩ => rfl)
  rw [val_main_v36_apply]
  simp only [val_main_v35_apply, el, er]
  rw [sum_cols]
  simp only [concat_apply]
  rfl

/-- The reference program computes the specification's multi-head memory attention. -/
theorem reference_is_result
    (x0 : (⟨S16384x512, .f32⟩ : BufTy).Contents (Elt Ideal)) (x1 : (⟨S16x1024x512, .f32⟩ : BufTy).Contents (Elt Ideal))
    (x2 : (⟨S16x512x512, .f32⟩ : BufTy).Contents (Elt Ideal)) (x3 : (⟨S16x512, .f32⟩ : BufTy).Contents (Elt Ideal))
    (x4 : (⟨S16x512x512, .f32⟩ : BufTy).Contents (Elt Ideal)) (x5 : (⟨S16x512, .f32⟩ : BufTy).Contents (Elt Ideal))
    (x6 : (⟨S512x8192, .f32⟩ : BufTy).Contents (Elt Ideal)) (x7 : (⟨S512, .f32⟩ : BufTy).Contents (Elt Ideal)) :
    val_main_v39 (F := Ideal) x0 x1 x2 x3 x4 x5 x6 x7 = result x0 x1 x2 x3 x4 x5 x6 x7 := by
  funext j
  obtain ⟨n, o', rfl⟩ : ∃ (n : Fin 16384) (o' : Fin 512), j = ix2 n o' := ⟨j 0, j 1, eq_ix2 j⟩
  have eb : idx_main_v37 (idx_main_v38 (ix2 n o')) = ix1 o' :=
    funext fun a => Fin.ext (by match a with | ⟨0, _⟩ => rfl)
  rw [val_main_v39_apply, val_main_v38_apply, val_main_v37_apply, eb, lastDense_apply]
  simp only [Ideal.addf_def]
  rfl

end Cert.MemAttn.Ref

end
-- ==== Proof.lean ====
/-
  Multi-head memory attention: a two-region kernel against its array-at-a-time reference.

  Both programs compute, for sixteen heads, a softmax-normalised key array and a value array from the memory rows
  (two dense layers per head), score every query row against the keys, normalise the scores by a softmax along the
  memory axis, average the value rows with those weights, and send the heads' outputs laid side by side through a
  last dense layer. The specification (Proof/Spec.lean) states this as one function `result` of the eight argument
  arrays on the extended reals.

  The kernel does it in two regions. The first computes the key and value arrays one head per grid point. The second
  walks a grid of row tiles by heads: for each row tile it accumulates, head after head, the head's share of the last
  layer — head h's outputs times the 512 columns h·512 … h·512+511 of the weights — into the output block, starting
  from zero and adding the bias after the last head. The reference forms the full concatenation and contracts it over
  all 8192 columns at once. The two agree because a sum over 8192 columns is the sum over the sixteen heads of the
  sums over each head's 512 columns, a product of two extended reals does not depend on the order of its factors,
  and a change of float format is the identity at the ideal values. Only commutativity and associativity of + and ·
  are used, so the finiteness of the inputs is never needed.

  The three frame claims are the programs' runs with the results forgotten; the idealization rewrote nothing, so the
  preservation claim is trivial.
-/
import proofs.«181606_j26877905338696_2_alg».proof.Defs
import proofs.«181606_j26877905338696_2_alg».proof.Proof.Gen.Kernel
import proofs.«181606_j26877905338696_2_alg».proof.Proof.Gen.Kernel.Skeleton
import proofs.«181606_j26877905338696_2_alg».proof.Proof.Gen.Kernel.Launch
import proofs.«181606_j26877905338696_2_alg».proof.Proof.Gen.Kernel.Points
import proofs.«181606_j26877905338696_2_alg».proof.Proof.Gen.Kernel.Frame
import proofs.«181606_j26877905338696_2_alg».proof.Proof.Gen.KernelIdeal
import proofs.«181606_j26877905338696_2_alg».proof.Proof.Gen.KernelIdeal.Skeleton
import proofs.«181606_j26877905338696_2_alg».proof.Proof.Gen.KernelIdeal.Launch
import proofs.«181606_j26877905338696_2_alg».proof.Proof.Gen.KernelIdeal.Points
import proofs.«181606_j26877905338696_2_alg».proof.Proof.Gen.KernelIdeal.Frame
import proofs.«181606_j26877905338696_2_alg».proof.Proof.Gen.ReferenceIdeal
import proofs.«181606_j26877905338696_2_alg».proof.Proof.Gen.Pre_finite_inputs
import proofs.«181606_j26877905338696_2_alg».proof.Proof.Gen.ReferenceIdeal.Run
import proofs.«181606_j26877905338696_2_alg».proof.Proof.Gen.ReferenceIdeal.Read
import proofs.«181606_j26877905338696_2_alg».proof.Proof.KernelRun
import proofs.«181606_j26877905338696_2_alg».proof.Proof.Final
import proofs.«181606_j26877905338696_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : @Cert.frame_Kernel Cert.Kernel.Gen.facts Cert.Pre_finite_inputs.Gen.facts :=
  fun m ρ _ => Cert.Kernel.Gen.frame m ρ

/-- The idealized kernel runs and leaves its arguments unchanged. -/
theorem frame_kernelIdeal : @Cert.frame_KernelIdeal Cert.KernelIdeal.Gen.facts Cert.Pre_finite_inputs.Gen.facts :=
  fun m ρ _ => Cert.KernelIdeal.Gen.frame m ρ

/-- The idealized reference runs and leaves its arguments unchanged: its run with the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the arguments both idealized programs end with `result` of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.MemAttn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.MemAttn.Final.kernel_result m ρ c), (h c).2⟩)
      (Cert.MemAttn.KernelRun.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v39_eq, Cert.MemAttn.Ref.reference_is_result,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
